-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x14 : Shape := ⟨2, ![64, 14]⟩
abbrev S14x14 : Shape := ⟨2, ![14, 14]⟩
abbrev S14 : Shape := ⟨1, ![14]⟩
abbrev S14x16 : Shape := ⟨2, ![14, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x14 : S_.BroadcastsInDim S64x14 (![] : Fin 0 → Fin S64x14.rank)
  reducesTo_S64x14_S_d0_1 : S64x14.ReducesTo [0, 1] S_
  bcast_S_S14x14 : S_.BroadcastsInDim S14x14 (![] : Fin 0 → Fin S14x14.rank)
  reducesTo_S14x14_S_d0_1 : S14x14.ReducesTo [0, 1] S_
  bcast_S_S14 : S_.BroadcastsInDim S14 (![] : Fin 0 → Fin S14.rank)
  reducesTo_S14_S_d0 : S14.ReducesTo [0] S_
  bcast_S_S14x16 : S_.BroadcastsInDim S14x16 (![] : Fin 0 → Fin S14x16.rank)
  reducesTo_S14x16_S_d0_1 : S14x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg6 : FVec F S14x14 .f32) (main_arg7 : FVec F S14 .f32) (main_arg8 : FVec F S14x16 .f32) (main_arg9 : FVec F S16 .f32) (main_v13 : IVec S_ 1) (main_v16 : IVec S14x14 1) : IVec S_ 1 :=
  let main_c_5 : IVec S_ 1 := constantI S_ 1 1#1
  let main_v17 : IVec S_ 1 := (fun x v => Host.reduce IntOp.andi x v reducesTo_S14x14_S_d0_1 h_S_) main_v16 main_c_5
  let main_v18 : IVec S_ 1 := andi main_v13 main_v17
  let main_v19 : FVec F S14x14 .f32 := Host.absf main_arg6
  let main_cst_6 : FVec F S_ .f32 := constant S_ .f32 0x7F800000#32
  let main_v20 : FVec F S14x14 .f32 := broadcastInDim S14x14 ![] bcast_S_S14x14 main_cst_6
  let main_v21 : IVec S14x14 1 := cmpf .olt main_v19 main_v20
  let main_c_7 : IVec S_ 1 := constantI S_ 1 1#1
  let main_v22 : IVec S_ 1 := (fun x v => Host.reduce IntOp.andi x v reducesTo_S14x14_S_d0_1 h_S_) main_v21 main_c_7
  let main_v23 : IVec S_ 1 := andi main_v18 main_v22
  let main_v24 : FVec F S14 .f32 := Host.absf main_arg7
  let main_cst_8 : FVec F S_ .f32 := constant S_ .f32 0x7F800000#32
  let main_v25 : FVec F S14 .f32 := broadcastInDim S14 ![] bcast_S_S14 main_cst_8
  let main_v26 : IVec S14 1 := cmpf .olt main_v24 main_v25
  let main_c_9 : IVec S_ 1 := constantI S_ 1 1#1
  let main_v27 : IVec S_ 1 := (fun x v => Host.reduce IntOp.andi x v reducesTo_S14_S_d0 h_S_) main_v26 main_c_9
  let main_v28 : IVec S_ 1 := andi main_v23 main_v27
  let main_v29 : FVec F S14x16 .f32 := Host.absf main_arg8
  let main_cst_10 : FVec F S_ .f32 := constant S_ .f32 0x7F800000#32
  let main_v30 : FVec F S14x16 .f32 := broadcastInDim S14x16 ![] bcast_S_S14x16 main_cst_10
  let main_v31 : IVec S14x16 1 := cmpf .olt main_v29 main_v30
  let main_c_11 : IVec S_ 1 := constantI S_ 1 1#1
  let main_v32 : IVec S_ 1 := (fun x v => Host.reduce IntOp.andi x v reducesTo_S14x16_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : IVec S1000000 32) (main_arg2 : IVec S1000000 32) (main_arg3 : FVec F S1000000 .f32) (main_arg4 : FVec F S64x14 .f32) (main_arg5 : FVec F S14x14 .f32) (main_arg6 : FVec F S14x14 .f32) (main_arg7 : FVec F S14 .f32) (main_arg8 : FVec F S14x16 .f32) (main_arg9 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg3
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x14 .f32 := Host.absf main_arg4
  let main_cst_2 : FVec F S_ .f32 := constant S_ .f32 0x7F800000#32
  let main_v10 : FVec F S64x14 .f32 := broadcastInDim S64x14 ![] bcast_S_S64x14 main_cst_2
  let main_v11 : IVec S64x14 1 := cmpf .olt main_v9 main_v10
  let main_c_3 : IVec S_ 1 := constantI S_ 1 1#1
  let main_v12 : IVec S_ 1 := (fun x v => Host.reduce IntOp.andi x v reducesTo_S64x14_S_d0_1 h_S_) main_v11 main_c_3
  let main_v13 : IVec S_ 1 := andi main_v8 main_v12
  let main_v14 : FVec F S14x14 .f32 := Host.absf main_arg5
  let main_cst_4 : FVec F S_ .f32 := constant S_ .f32 0x7F800000#32
  let main_v15 : FVec F S14x14 .f32 := broadcastInDim S14x14 ![] bcast_S_S14x14 main_cst_4
  let main_v16 : IVec S14x14 1 := cmpf .olt main_v14 main_v15
  fn_part1 (F := F) main_arg6 main_arg7 main_arg8 main_arg9 main_v13 main_v16
-- ==== Kernel.lean ====
abbrev S100000x64 : Shape := ⟨2, ![100000, 64]⟩
abbrev S1000000 : Shape := ⟨1, ![1000000]⟩
abbrev S64x14 : Shape := ⟨2, ![64, 14]⟩
abbrev S14x14 : Shape := ⟨2, ![14, 14]⟩
abbrev S14 : Shape := ⟨1, ![14]⟩
abbrev S14x16 : Shape := ⟨2, ![14, 16]⟩
abbrev S16 : Shape := ⟨1, ![16]⟩
abbrev S1000000x1 : Shape := ⟨2, ![1000000, 1]⟩
abbrev S_ : Shape := ⟨0, ![]⟩
abbrev S1000000x64 : Shape := ⟨2, ![1000000, 64]⟩
abbrev S100000x14 : Shape := ⟨2, ![100000, 14]⟩
abbrev S5000x64 : Shape := ⟨2, ![5000, 64]⟩
abbrev S5000x14 : Shape := ⟨2, ![5000, 14]⟩
abbrev S1000000x14 : Shape := ⟨2, ![1000000, 14]⟩
abbrev S1x14 : Shape := ⟨2, ![1, 14]⟩
abbrev S1x16 : Shape := ⟨2, ![1, 16]⟩
abbrev S100000x30 : Shape := ⟨2, ![100000, 30]⟩
abbrev S5000x30 : Shape := ⟨2, ![5000, 30]⟩
abbrev S5000x16 : Shape := ⟨2, ![5000, 16]⟩
abbrev S5000x7 : Shape := ⟨2, ![5000, 7]⟩
abbrev S5000x2 : Shape := ⟨2, ![5000, 2]⟩

abbrev nBuf : Space → Nat
  | .hbm => 46
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S64x14, .f32⟩
  | .hbm, ⟨5, _⟩ => ⟨S14x14, .f32⟩
  | .hbm, ⟨6, _⟩ => ⟨S14x14, .f32⟩
  | .hbm, ⟨7, _⟩ => ⟨S14, .f32⟩
  | .hbm, ⟨8, _⟩ => ⟨S14x16, .f32⟩
  | .hbm, ⟨9, _⟩ => ⟨S16, .f32⟩
  | .hbm, ⟨10, _⟩ => ⟨S1000000x1, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S1000000x64, .f32⟩
  | .hbm, ⟨21, _⟩ => ⟨S1000000x64, .f32⟩
  | .hbm, ⟨22, _⟩ => ⟨S_, .f32⟩
  | .hbm, ⟨23, _⟩ => ⟨S100000x64, .f32⟩
  | .hbm, ⟨24, _⟩ => ⟨S1000000x1, .i32⟩
  | .hbm, ⟨25, _⟩ => ⟨S100000x64, .f32⟩
  | .hbm, ⟨26, _⟩ => ⟨S100000x14, .f32⟩
  | .hbm, ⟨27, _⟩ => ⟨S1000000x1, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x14, .f32⟩
  | .hbm, ⟨37, _⟩ => ⟨S1000000x14, .f32⟩
  | .hbm, ⟨38, _⟩ => ⟨S1000000x14, .f32⟩
  | .hbm, ⟨39, _⟩ => ⟨S_, .f32⟩
  | .hbm, ⟨40, _⟩ => ⟨S100000x14, .f32⟩
  | .hbm, ⟨41, _⟩ => ⟨S1000000x1, .i32⟩
  | .hbm, ⟨42, _⟩ => ⟨S100000x14, .f32⟩
  | .hbm, ⟨43, _⟩ => ⟨S1x14, .f32⟩
  | .hbm, ⟨44, _⟩ => ⟨S1x16, .f32⟩
  | .hbm, ⟨45, _⟩ => ⟨S100000x30, .f32⟩
  | .local _ .vmem, ⟨0, _⟩ => ⟨S5000x64, .f32⟩
  | .local _ .vmem, ⟨1, _⟩ => ⟨S5000x64, .f32⟩
  | .local _ .vmem, ⟨2, _⟩ => ⟨S64x14, .f32⟩
  | .local _ .vmem, ⟨3, _⟩ => ⟨S5000x14, .f32⟩
  | .local _ .vmem, ⟨4, _⟩ => ⟨S5000x14, .f32⟩
  | .local _ .vmem, ⟨5, _⟩ => ⟨S5000x14, .f32⟩
  | .local _ .vmem, ⟨6, _⟩ => ⟨S5000x14, .f32⟩
  | .local _ .vmem, ⟨7, _⟩ => ⟨S14x14, .f32⟩
  | .local _ .vmem, ⟨8, _⟩ => ⟨S14x14, .f32⟩
  | .local _ .vmem, ⟨9, _⟩ => ⟨S1x14, .f32⟩
  | .local _ .vmem, ⟨10, _⟩ => ⟨S14x16, .f32⟩
  | .local _ .vmem, ⟨11, _⟩ => ⟨S1x16, .f32⟩
  | .local _ .vmem, ⟨12, _⟩ => ⟨S5000x30, .f32⟩
  | .local _ .vmem, ⟨13, _⟩ => ⟨S5000x30, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x14 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x14 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x14 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S14x14 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S14x14 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x14 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S14x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x30 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x14_S64x14_0_0 : ∀ a, (![0, 0] : Fin 2 → Nat) a + S64x14.size a ≤ S64x14.size a
  h_S64x14 : 0 < S64x14.numel
  inb_S5000x14_S5000x14_0_0 : ∀ a, (![0, 0] : Fin 2 → Nat) a + S5000x14.size a ≤ S5000x14.size a
  h_S5000x14 : 0 < S5000x14.numel
  bcast_S1000000x1_S1000000x14_0_1 : S1000000x1.BroadcastsInDim S1000000x14 (![0, 1] : Fin 2 → Fin S1000000x14.rank)
  bcast_S_S100000x14 : S_.BroadcastsInDim S100000x14 (![] : Fin 0 → Fin S100000x14.rank)
  shapeCasts_S14_S1x14 : S14.ShapeCasts S1x14
  shapeCasts_S16_S1x16 : S16.ShapeCasts S1x16
  shapeCasts_S5000x14_S5000x14 : S5000x14.ShapeCasts S5000x14
  inb_S14x14_S14x14_0_0 : ∀ a, (![0, 0] : Fin 2 → Nat) a + S14x14.size a ≤ S14x14.size a
  h_S14x14 : 0 < S14x14.numel
  inb_S14x16_S14x16_0_0 : ∀ a, (![0, 0] : Fin 2 → Nat) a + S14x16.size a ≤ S14x16.size a
  h_S14x16 : 0 < S14x16.numel
  inb_S1x14_S1x14_0_0 : ∀ a, (![0, 0] : Fin 2 → Nat) a + S1x14.size a ≤ S1x14.size a
  h_S1x14 : 0 < S1x14.numel
  shapeCasts_S1x14_S1x14 : S1x14.ShapeCasts S1x14
  broadcasts_S1x14_S5000x14 : S1x14.Broadcasts S5000x14
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  slices_S5000x14_o0_0_S5000x7 : S5000x14.Slices ![0, 0] S5000x7
  slices_S5000x14_o0_7_S5000x7 : S5000x14.Slices ![0, 7] S5000x7
  slices_S5000x16_o0_0_S5000x14 : S5000x16.Slices ![0, 0] S5000x14
  slices_S5000x16_o0_14_S5000x2 : S5000x16.Slices ![0, 14] S5000x2
  concatenates_S5000x7_S5000x7_S5000x14_S5000x2_S5000x30_d1 : Shape.Concatenates [S5000x7, S5000x7, S5000x14, S5000x2] S5000x30 1
  inb_S5000x30_S5000x30_0_0 : ∀ a, (![0, 0] : Fin 2 → Nat) a + S5000x30.size a ≤ S5000x30.size a
  h_S5000x30 : 0 < S5000x30.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x14_S5000x14_1_0_0_1_n_n_wf : DotDims.WF S5000x64 S64x14 S5000x14 [1] [0] [0] [1] [] []
  gather_S100000x14_S1000000x1_S1000000x14_1_0_n_n_0_1_114_wf : GatherDims.WF S100000x14 S1000000x1 S1000000x14 [1] [0] [] [0] [] 1 ![1, 14]
  scatter_S100000x14_S1000000x1_S1000000x14_1_0_0_1_wf : ScatterDims.WF S100000x14 S1000000x1 S1000000x14 [1] [0] [0] 1
  dot_S5000x14_S14x14_S5000x14_1_0_0_1_n_n_wf : DotDims.WF S5000x14 S14x14 S5000x14 [1] [0] [0] [1] [] []
  dot_S5000x14_S14x16_S5000x16_1_0_0_1_n_n_wf : DotDims.WF S5000x14 S14x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x14.size a ≤ S64x14.size a
  hwx0_1 : ∀ i : grid0.Coords, EltTy.bits .f32 = 32 ∨ (Rect.block (s := S64x14) S64x14.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x14.size a ≤ S100000x14.size a
  hwx0_2 : ∀ i : grid0.Coords, EltTy.bits .f32 = 32 ∨ (Rect.block (s := S100000x14) S5000x14.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x14.size a ≤ S100000x14.size a
  hwx1_0 : ∀ i : grid1.Coords, EltTy.bits .f32 = 32 ∨ (Rect.block (s := S100000x14) S5000x14.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S14x14.size a ≤ S14x14.size a
  hwx1_1 : ∀ i : grid1.Coords, EltTy.bits .f32 = 32 ∨ (Rect.block (s := S14x14) S14x14.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S14x14.size a ≤ S14x14.size a
  hwx1_2 : ∀ i : grid1.Coords, EltTy.bits .f32 = 32 ∨ (Rect.block (s := S14x14) S14x14.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x14.size a ≤ S1x14.size a
  hwx1_3 : ∀ i : grid1.Coords, EltTy.bits .f32 = 32 ∨ (Rect.block (s := S1x14) S1x14.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S14x16.size a ≤ S14x16.size a
  hwx1_4 : ∀ i : grid1.Coords, EltTy.bits .f32 = 32 ∨ (Rect.block (s := S14x16) S14x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x30.size a ≤ S100000x30.size a
  hwx1_6 : ∀ i : grid1.Coords, EltTy.bits .f32 = 32 ∨ (Rect.block (s := S100000x30) S5000x30.size (cc1_transform_6 i) (hinb1_6 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x14_S5000x14_1_0_0_1_n_n : DotDims S5000x64 S64x14 S5000x14 where
  lhsContracting := [1]
  rhsContracting := [0]
  lhsNonContracting := [0]
  rhsNonContracting := [1]
  lhsBatch := []
  rhsBatch := []
  wf := dot_S5000x64_S64x14_S5000x14_1_0_0_1_n_n_wf
def gather_S100000x14_S1000000x1_S1000000x14_1_0_n_n_0_1_114 : GatherDims S100000x14 S1000000x1 S1000000x14 where
  offsetDims := [1]
  collapsedSliceDims := [0]
  operandBatchingDims := []
  startIndicesBatchingDims := []
  startIndexMap := [0]
  indexVectorDim := 1
  sliceSizes := ![1, 14]
  wf := gather_S100000x14_S1000000x1_S1000000x14_1_0_n_n_0_1_114_wf
def scatter_S100000x14_S1000000x1_S1000000x14_1_0_0_1 : ScatterDims S100000x14 S1000000x1 S1000000x14 where
  updateWindowDims := [1]
  insertedWindowDims := [0]
  scatterDimsToOperandDims := [0]
  indexVectorDim := 1
  wf := scatter_S100000x14_S1000000x1_S1000000x14_1_0_0_1_wf
def dot_S5000x14_S14x14_S5000x14_1_0_0_1_n_n : DotDims S5000x14 S14x14 S5000x14 where
  lhsContracting := [1]
  rhsContracting := [0]
  lhsNonContracting := [0]
  rhsNonContracting := [1]
  lhsBatch := []
  rhsBatch := []
  wf := dot_S5000x14_S14x14_S5000x14_1_0_0_1_n_n_wf
def dot_S5000x14_S14x16_S5000x16_1_0_0_1_n_n : DotDims S5000x14 S14x16 S5000x16 where
  lhsContracting := [1]
  rhsContracting := [0]
  lhsNonContracting := [0]
  rhsNonContracting := [1]
  lhsBatch := []
  rhsBatch := []
  wf := dot_S5000x14_S14x16_S5000x16_1_0_0_1_n_n_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x14.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x14.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S5000x14.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S14x14.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S14x14.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x14.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S14x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x30.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x14 : Shape := ⟨2, ![64, 14]⟩
abbrev S14x14 : Shape := ⟨2, ![14, 14]⟩
abbrev S14 : Shape := ⟨1, ![14]⟩
abbrev S14x16 : Shape := ⟨2, ![14, 16]⟩
abbrev S16 : Shape := ⟨1, ![16]⟩
abbrev S1000000x1 : Shape := ⟨2, ![1000000, 1]⟩
abbrev S_ : Shape := ⟨0, ![]⟩
abbrev S1000000x64 : Shape := ⟨2, ![1000000, 64]⟩
abbrev S100000x14 : Shape := ⟨2, ![100000, 14]⟩
abbrev S1000000x14 : Shape := ⟨2, ![1000000, 14]⟩
abbrev S1x14 : Shape := ⟨2, ![1, 14]⟩
abbrev S100000x16 : Shape := ⟨2, ![100000, 16]⟩
abbrev S1x16 : Shape := ⟨2, ![1, 16]⟩
abbrev S100000x7 : Shape := ⟨2, ![100000, 7]⟩
abbrev S100000x2 : Shape := ⟨2, ![100000, 2]⟩
abbrev S100000x30 : Shape := ⟨2, ![100000, 30]⟩

abbrev nBuf : Space → Nat
  | .hbm => 82
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S64x14, .f32⟩
  | .hbm, ⟨5, _⟩ => ⟨S14x14, .f32⟩
  | .hbm, ⟨6, _⟩ => ⟨S14x14, .f32⟩
  | .hbm, ⟨7, _⟩ => ⟨S14, .f32⟩
  | .hbm, ⟨8, _⟩ => ⟨S14x16, .f32⟩
  | .hbm, ⟨9, _⟩ => ⟨S16, .f32⟩
  | .hbm, ⟨10, _⟩ => ⟨S1000000x1, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S1000000x64, .f32⟩
  | .hbm, ⟨21, _⟩ => ⟨S1000000x64, .f32⟩
  | .hbm, ⟨22, _⟩ => ⟨S_, .f32⟩
  | .hbm, ⟨23, _⟩ => ⟨S100000x64, .f32⟩
  | .hbm, ⟨24, _⟩ => ⟨S1000000x1, .i32⟩
  | .hbm, ⟨25, _⟩ => ⟨S100000x64, .f32⟩
  | .hbm, ⟨26, _⟩ => ⟨S100000x14, .f32⟩
  | .hbm, ⟨27, _⟩ => ⟨S_, .f32⟩
  | .hbm, ⟨28, _⟩ => ⟨S100000x14, .f32⟩
  | .hbm, ⟨29, _⟩ => ⟨S100000x14, .f32⟩
  | .hbm, ⟨30, _⟩ => ⟨S1000000x1, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x14, .f32⟩
  | .hbm, ⟨40, _⟩ => ⟨S1000000x14, .f32⟩
  | .hbm, ⟨41, _⟩ => ⟨S1000000x14, .f32⟩
  | .hbm, ⟨42, _⟩ => ⟨S_, .f32⟩
  | .hbm, ⟨43, _⟩ => ⟨S100000x14, .f32⟩
  | .hbm, ⟨44, _⟩ => ⟨S1000000x1, .i32⟩
  | .hbm, ⟨45, _⟩ => ⟨S100000x14, .f32⟩
  | .hbm, ⟨46, _⟩ => ⟨S100000x14, .f32⟩
  | .hbm, ⟨47, _⟩ => ⟨S_, .f32⟩
  | .hbm, ⟨48, _⟩ => ⟨S100000x14, .f32⟩
  | .hbm, ⟨49, _⟩ => ⟨S100000x14, .f32⟩
  | .hbm, ⟨50, _⟩ => ⟨S100000x14, .f32⟩
  | .hbm, ⟨51, _⟩ => ⟨S1x14, .f32⟩
  | .hbm, ⟨52, _⟩ => ⟨S100000x14, .f32⟩
  | .hbm, ⟨53, _⟩ => ⟨S100000x14, .f32⟩
  | .hbm, ⟨54, _⟩ => ⟨S100000x14, .f32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S100000x16, .f32⟩
  | .hbm, ⟨60, _⟩ => ⟨S100000x7, .f32⟩
  | .hbm, ⟨61, _⟩ => ⟨S100000x7, .f32⟩
  | .hbm, ⟨62, _⟩ => ⟨S_, .f32⟩
  | .hbm, ⟨63, _⟩ => ⟨S100000x7, .f32⟩
  | .hbm, ⟨64, _⟩ => ⟨S100000x7, .f32⟩
  | .hbm, ⟨65, _⟩ => ⟨S_, .f32⟩
  | .hbm, ⟨66, _⟩ => ⟨S100000x7, .f32⟩
  | .hbm, ⟨67, _⟩ => ⟨S100000x7, .f32⟩
  | .hbm, ⟨68, _⟩ => ⟨S100000x7, .f32⟩
  | .hbm, ⟨69, _⟩ => ⟨S100000x7, .f32⟩
  | .hbm, ⟨70, _⟩ => ⟨S100000x7, .i1⟩
  | .hbm, ⟨71, _⟩ => ⟨S100000x7, .f32⟩
  | .hbm, ⟨72, _⟩ => ⟨S100000x7, .f32⟩
  | .hbm, ⟨73, _⟩ => ⟨S100000x7, .f32⟩
  | .hbm, ⟨74, _⟩ => ⟨S100000x7, .f32⟩
  | .hbm, ⟨75, _⟩ => ⟨S100000x7, .f32⟩
  | .hbm, ⟨76, _⟩ => ⟨S100000x7, .f32⟩
  | .hbm, ⟨77, _⟩ => ⟨S100000x7, .f32⟩
  | .hbm, ⟨78, _⟩ => ⟨S100000x7, .f32⟩
  | .hbm, ⟨79, _⟩ => ⟨S100000x14, .f32⟩
  | .hbm, ⟨80, _⟩ => ⟨S100000x2, .f32⟩
  | .hbm, ⟨81, _⟩ => ⟨S100000x30, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_cst : Ref sig .tc := ⟨.hbm, 47, rfl⟩
abbrev main_call1_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S_S100000x14 : S_.BroadcastsInDim S100000x14 (![] : Fin 0 → Fin S100000x14.rank)
  bcast_S1000000x1_S1000000x14_0_1 : S1000000x1.BroadcastsInDim S1000000x14 (![0, 1] : Fin 2 → Fin S1000000x14.rank)
  bcast_S14_S1x14_1 : S14.BroadcastsInDim S1x14 (![1] : Fin 1 → Fin S1x14.rank)
  bcast_S1x14_S100000x14_0_1 : S1x14.BroadcastsInDim S100000x14 (![0, 1] : Fin 2 → Fin S100000x14.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S100000x14_S100000x7_0_0 : S100000x14.Slices ![0, 0] S100000x7
  slices_S100000x14_S100000x7_0_7 : S100000x14.Slices ![0, 7] S100000x7
  bcast_S_S100000x7 : S_.BroadcastsInDim S100000x7 (![] : Fin 0 → Fin S100000x7.rank)
  slices_S100000x16_S100000x14_0_0 : S100000x16.Slices ![0, 0] S100000x14
  slices_S100000x16_S100000x2_0_14 : S100000x16.Slices ![0, 14] S100000x2
  concatenates_S100000x7_S100000x7_S100000x14_S100000x2_S100000x30_d1 : Shape.Concatenates [S100000x7, S100000x7, S100000x14, S100000x2] S100000x30 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x14_S100000x14_1_0_0_1_n_n_wf : DotDims.WF S100000x64 S64x14 S100000x14 [1] [0] [0] [1] [] []
  gather_S100000x14_S1000000x1_S1000000x14_1_0_n_n_0_1_114_wf : GatherDims.WF S100000x14 S1000000x1 S1000000x14 [1] [0] [] [0] [] 1 ![1, 14]
  scatter_S100000x14_S1000000x1_S1000000x14_1_0_0_1_wf : ScatterDims.WF S100000x14 S1000000x1 S1000000x14 [1] [0] [0] 1
  dot_S100000x14_S14x14_S100000x14_1_0_0_1_n_n_wf : DotDims.WF S100000x14 S14x14 S100000x14 [1] [0] [0] [1] [] []
  dot_S100000x14_S14x16_S100000x16_1_0_0_1_n_n_wf : DotDims.WF S100000x14 S14x16 S100000x16 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x14_S100000x14_1_0_0_1_n_n : DotDims S100000x64 S64x14 S100000x14 where
  lhsContracting := [1]
  rhsContracting := [0]
  lhsNonContracting := [0]
  rhsNonContracting := [1]
  lhsBatch := []
  rhsBatch := []
  wf := dot_S100000x64_S64x14_S100000x14_1_0_0_1_n_n_wf
def gather_S100000x14_S1000000x1_S1000000x14_1_0_n_n_0_1_114 : GatherDims S100000x14 S1000000x1 S1000000x14 where
  offsetDims := [1]
  collapsedSliceDims := [0]
  operandBatchingDims := []
  startIndicesBatchingDims := []
  startIndexMap := [0]
  indexVectorDim := 1
  sliceSizes := ![1, 14]
  wf := gather_S100000x14_S1000000x1_S1000000x14_1_0_n_n_0_1_114_wf
def scatter_S100000x14_S1000000x1_S1000000x14_1_0_0_1 : ScatterDims S100000x14 S1000000x1 S1000000x14 where
  updateWindowDims := [1]
  insertedWindowDims := [0]
  scatterDimsToOperandDims := [0]
  indexVectorDim := 1
  wf := scatter_S100000x14_S1000000x1_S1000000x14_1_0_0_1_wf
def dot_S100000x14_S14x14_S100000x14_1_0_0_1_n_n : DotDims S100000x14 S14x14 S100000x14 where
  lhsContracting := [1]
  rhsContracting := [0]
  lhsNonContracting := [0]
  rhsNonContracting := [1]
  lhsBatch := []
  rhsBatch := []
  wf := dot_S100000x14_S14x14_S100000x14_1_0_0_1_n_n_wf
def dot_S100000x14_S14x16_S100000x16_1_0_0_1_n_n : DotDims S100000x14 S14x16 S100000x16 where
  lhsContracting := [1]
  rhsContracting := [0]
  lhsNonContracting := [0]
  rhsNonContracting := [1]
  lhsBatch := []
  rhsBatch := []
  wf := dot_S100000x14_S14x16_S100000x16_1_0_0_1_n_n_wf

class Facts : Prop extends Facts₀ where

variable [Facts]
-- ==== Proof.KernelRun.lean ====
/-
  The idealized kernel program's run with every buffer named.

  The program is four stretches in a row: the host lines that gather, weight and scatter-add the rows of X,
  the first tiled kernel, the host lines that do the same to the first kernel's result (and recast the two
  bias vectors as one-row matrices), and the second tiled kernel.  The buffer contents at the four boundaries
  are a fold from the launch memory; every weakly fair execution terminates with each unscoped buffer of the
  TensorCore at the last boundary's contents.  Read at the result buffer this is the second kernel's array
  after its write-backs; read at an argument it is the launch contents.
-/
import proofs.«166342_j65549790871682_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of each
    TensorCore at the contents the last boundary of the fold names. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run read at the result and at the ten arguments: the result buffer ends at the second kernel's array as
    the last boundary names it, each argument as launched. -/
theorem run_result : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_buffers m ρ)

end Cert.KernelIdeal.RunValue

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.Layer1.lean ====
/-
  The first tiled kernel, one output entry.

  At the ideal values a change of float format is the identity, so the body's product of the bf16-rounded row
  tile with the bf16-rounded weights, clipped below at zero, is at (p, q) the larger of zero and the sum over
  k of tile(p, k) · W(k, q): the same expression the reference's product and clip give at the array row the
  tile row came from.
-/
import proofs.«166342_j65549790871682_1_alg».proof.Proof.Gen.KernelIdeal.Skeleton
import proofs.«166342_j65549790871682_1_alg».proof.Proof.Gen.ReferenceIdeal.Read
import proofs.«166342_j65549790871682_1_alg».proof.Proof.LibPlainMatmul
import Idealize.ShloMosaic.Lib.ValueLayout

noncomputable section

namespace Cert.Bridge.Layer1

open Idealize.ShloMosaic Idealize.ShloMosaic.ValueIdx
open Cert.ReferenceIdeal.Read

/-- The kernel's clipped product at an entry of the tile. -/
theorem pay_apply (X : Vec Ideal Cert.KernelIdeal.S5000x64 .f32) (Wb : Vec Ideal Cert.KernelIdeal.S64x14 .f32)
    (p : Fin 5000) (q : Fin 14) :
    Cert.KernelIdeal.Gen.k0_pay1 (F := Ideal) X Wb (ix2 p q)
      = max (∑ k : Fin 64, X (ix2 p k) * Wb (ix2 k q)) (Ideal.ofBits .f32 0x00000000#32) := by
  unfold Cert.KernelIdeal.Gen.k0_pay1
  refine (maximumf_apply _ _ _).trans ?_
  refine congrArg₂ max ?_ rfl
  refine (PlainMatmul.matmul_zero_apply Cert.KernelIdeal.dot_S5000x64_S64x14_S5000x14_1_0_0_1_n_n rfl rfl rfl rfl rfl rfl none _ _ p q).trans ?_
  refine Finset.sum_congr rfl fun k _ => ?_
  rw [truncf_apply, truncf_apply, shapeCast_self]

/-- The reference's clipped product at an entry (r, q), as the same expression of row r of the aggregated
    features. -/
theorem ref_apply (x0 : (⟨Cert.ReferenceIdeal.S100000x64, .f32⟩ : BufTy).Contents (Elt Ideal))
    (x1 x2 : (⟨Cert.ReferenceIdeal.S1000000, .i32⟩ : BufTy).Contents (Elt Ideal))
    (x3 : (⟨Cert.ReferenceIdeal.S1000000, .f32⟩ : BufTy).Contents (Elt Ideal))
    (x4 : (⟨Cert.ReferenceIdeal.S64x14, .f32⟩ : BufTy).Contents (Elt Ideal)) (r : Fin 100000) (q : Fin 14) :
    val_main_v14 (F := Ideal) x0 x1 x2 x3 x4 (ix2 r q)
      = max (∑ k : Fin 64, val_main_v12 (F := Ideal) x0 x1 x2 x3 (ix2 r k) * x4 (ix2 k q)) (Ideal.ofBits .f32 0x00000000#32) := by
  rw [val_main_v14_apply, val_main_v13_apply, val_main_call0_v0_apply, val_main_call0_cst_apply]
  refine congrArg₂ max (Finset.sum_congr rfl fun k _ => ?_) rfl
  have el : lidx_main_v13 (ix2 r q) k = ix2 r k := funext fun a => match a with | ⟨0, _⟩ => rfl | ⟨1, _⟩ => rfl
  have er : ridx_main_v13 (ix2 r q) k = ix2 k q := funext fun a => match a with | ⟨0, _⟩ => rfl | ⟨1, _⟩ => rfl
  rw [el, er]

/-- Tile row p holds array row r, and the weights are the argument: the kernel's entry is the reference's. -/
theorem point (X : Vec Ideal Cert.KernelIdeal.S5000x64 .f32) (Wb : Vec Ideal Cert.KernelIdeal.S64x14 .f32)
    (x0 : (⟨Cert.ReferenceIdeal.S100000x64, .f32⟩ : BufTy).Contents (Elt Ideal))
    (x1 x2 : (⟨Cert.ReferenceIdeal.S1000000, .i32⟩ : BufTy).Contents (Elt Ideal))
    (x3 : (⟨Cert.ReferenceIdeal.S1000000, .f32⟩ : BufTy).Contents (Elt Ideal))
    (x4 : (⟨Cert.ReferenceIdeal.S64x14, .f32⟩ : BufTy).Contents (Elt Ideal))
    (p : Fin 5000) (r : Fin 100000) (q : Fin 14)
    (hX : ∀ k : Fin 64, X (ix2 p k) = val_main_v12 (F := Ideal) x0 x1 x2 x3 (ix2 r k))
    (hW : ∀ (k : Fin 64) (j : Fin 14), Wb (ix2 k j) = x4 (ix2 k j)) :
    Cert.KernelIdeal.Gen.k0_pay1 (F := Ideal) X Wb (ix2 p q) = val_main_v14 (F := Ideal) x0 x1 x2 x3 x4 (ix2 r q) := by
  rw [pay_apply, ref_apply]
  refine congrArg₂ max (Finset.sum_congr rfl fun k _ => ?_) rfl
  rw [hX, hW]

end Cert.Bridge.Layer1

end
-- ==== Proof.Region0.lean ====
/-
  The first tiled kernel, from tiles to the whole array.

  The grid has 20 points; point t reads rows 5000·t … 5000·t + 4999 of the aggregated features (all 64 columns)
  and the whole weight matrix, and writes back rows 5000·t … 5000·t + 4999 of the result (all 14 columns).  The
  tiles written back are therefore restrictions of one function of the whole arrays, the reference's clipped
  product, and the 20 row tiles cover the 100000 rows: the result array ends as that function.
-/
import proofs.«166342_j65549790871682_1_alg».proof.Proof.Gen.KernelIdeal.Frame
import proofs.«166342_j65549790871682_1_alg».proof.Proof.Layer1
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Read (val_main_v12 val_main_v14)

variable (V : (c : Dev nD) → (b : Ref sig .tc) → Buf (Elt Ideal) ((c : Thread nD τ).loc b))

theorem hz : (![0, 0] : Fin 2 → Nat) = fun _ => 0 := funext fun a => by fin_cases a <;> rfl

/-- Two functions on a matrix's indices agree when they agree at every (p, q). -/
theorem fn_ext2 {a b : Nat} {β : Type} (f g : (⟨2, ![a, b]⟩ : Shape).Idx → β)
    (h : ∀ (p : Fin a) (q : Fin b), f (ix2 p q) = g (ix2 p q)) : f = g :=
  funext fun y => by rw [eq_ix2 y]; exact h _ _

/-- The printed index maps over the grid: the row tiles move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Writing back an uncut tile writes the tile. -/
theorem cut_apply (t : Fin cfg0.N) (Y : FVec Ideal S5000x14 .f32) (p : Fin 5000) (q : Fin 14) :
    (win0 2).cut (grid0.coords t) Y (ix2 p q) = Y (ix2 p q) := rfl

/-- Entry (p, q) of point t's tile of the result array is the array's entry (5000·t + p, q). -/
theorem read_out (t : Fin cfg0.N) (G : (⟨S100000x14, .f32⟩ : BufTy).Contents (Elt Ideal)) (p : Fin 5000) (q : Fin 14)
    (r : Fin 100000) (hr : r.val = t.val * 5000 + p.val) :
    View.read (Elt Ideal) ((View.whole main_v13).slice ((win0 2).rect t)) G (ix2 p q) = G (ix2 r q) := by
  obtain ⟨e0, e1, e2, e3, e4, e5⟩ := idx_facts t
  show G (((View.whole main_v13).slice ((win0 2).rect t)).emb (ix2 p q)) = G (ix2 r q)
  refine congrArg G ?_
  funext a; apply Fin.ext
  match a with
  | ⟨0, _⟩ => show win0_2.index t (0 : Fin 2) * 5000 + 1 * p.val = r.val; omega
  | ⟨1, _⟩ => show win0_2.index t (1 : Fin 2) * 14 + 1 * q.val = q.val; omega

/-- Entry (p, k) of point t's tile of the aggregated features is the array's entry (5000·t + p, k). -/
theorem read_in0 (t : Fin cfg0.N) (A : (⟨S100000x64, .f32⟩ : BufTy).Contents (Elt Ideal)) (p : Fin 5000) (k : Fin 64)
    (r : Fin 100000) (hr : r.val = t.val * 5000 + p.val) :
    View.read (Elt Ideal) ((View.whole main_v12).slice ((win0 0).rect t)) A (ix2 p k) = A (ix2 r k) := by
  obtain ⟨e0, e1, e2, e3, e4, e5⟩ := idx_facts t
  show A (((View.whole main_v12).slice ((win0 0).rect t)).emb (ix2 p k)) = A (ix2 r k)
  refine congrArg A ?_
  funext a; apply Fin.ext
  match a with
  | ⟨0, _⟩ => show win0_0.index t (0 : Fin 2) * 5000 + 1 * p.val = r.val; omega
  | ⟨1, _⟩ => show win0_0.index t (1 : Fin 2) * 64 + 1 * k.val = k.val; omega

/-- The weights' one block is the whole matrix at every point. -/
theorem read_in1 (t : Fin cfg0.N) (W : (⟨S64x14, .f32⟩ : BufTy).Contents (Elt Ideal)) (k : Fin 64) (j : Fin 14) :
    View.read (Elt Ideal) ((View.whole main_arg4).slice ((win0 1).rect t)) W (ix2 k j) = W (ix2 k j) := by
  obtain ⟨e0, e1, e2, e3, e4, e5⟩ := idx_facts t
  show W (((View.whole main_arg4).slice ((win0 1).rect t)).emb (ix2 k j)) = W (ix2 k j)
  refine congrArg W ?_
  funext a; apply Fin.ext
  match a with
  | ⟨0, _⟩ => show win0_1.index t (0 : Fin 2) * 64 + 1 * k.val = k.val; omega
  | ⟨1, _⟩ => show win0_1.index t (1 : Fin 2) * 14 + 1 * j.val = j.val; omega

/-- What point t writes back is tile t of the reference's clipped product, when the region finds the aggregated
    features and the weights in its two input arrays. -/
theorem flushed (c : Dev nD)
    (x0 : (⟨Cert.ReferenceIdeal.S100000x64, .f32⟩ : BufTy).Contents (Elt Ideal))
    (x1 x2 : (⟨Cert.ReferenceIdeal.S1000000, .i32⟩ : BufTy).Contents (Elt Ideal))
    (x3 : (⟨Cert.ReferenceIdeal.S1000000, .f32⟩ : BufTy).Contents (Elt Ideal))
    (x4 : (⟨Cert.ReferenceIdeal.S64x14, .f32⟩ : BufTy).Contents (Elt Ideal))
    (hA : V c main_v12 = val_main_v12 (F := Ideal) x0 x1 x2 x3) (hW : V c main_arg4 = x4) (t : Fin cfg0.N) :
    (dat0 V c).flushed 2 t = ((cfg0.win 2).blk t).view.read (Elt Ideal) (val_main_v14 (F := Ideal) x0 x1 x2 x3 x4) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x14) hz]
  have ht : t.val < 20 := lt_of_lt_of_eq t.isLt N_0
  refine fn_ext2 (a := 5000) (b := 14) _ _ fun p q => ?_
  have hp : p.val < 5000 := p.isLt
  refine (cut_apply t _ p q).trans ?_
  refine Eq.trans ?_ (read_out t _ p q ⟨t.val * 5000 + p.val, by omega⟩ rfl).symm
  refine Cert.Bridge.Layer1.point _ _ x0 x1 x2 x3 x4 p _ q (fun k => ?_) (fun k j => ?_)
  · exact (read_in0 t (V c main_v12) p k ⟨t.val * 5000 + p.val, by omega⟩ rfl).trans (congrFun hA _)
  · exact (read_in1 t (V c main_arg4) k j).trans (congrFun hW _)

/-- An index of the result array is in point t's tile iff each coordinate is in the tile's range on its axis. -/
theorem mem_blk (t : Fin cfg0.N) (i : S100000x14.Idx) :
    i ∈ ((cfg0.win 2).blk t).view.set ↔ ∀ a : Fin 2, win0_2.index t a * S5000x14.size a ≤ (i a).val ∧ (i a).val < win0_2.index t a * S5000x14.size a + S5000x14.size a := by
  show i ∈ ((View.whole main_v13).slice (win0_2.rect t)).set ↔ _
  rw [View.set_slice_whole, Rect.mem_set_unit]
  exact Iff.rfl

/-- Row r lies in the tile of point r / 5000. -/
theorem cover (i : S100000x14.Idx) :
    ∃ t : Fin cfg0.N, (cfg0.win 2).flush t = true ∧ i ∈ ((cfg0.win 2).blk t).view.set := by
  have hi0 : (i 0).val < 100000 := (i 0).isLt
  have hi1 : (i 1).val < 14 := (i 1).isLt
  have hlt : (i 0).val / 5000 < cfg0.N := by rw [show cfg0.N = 20 from N_0]; omega
  refine ⟨⟨(i 0).val / 5000, hlt⟩, flush0_2 _, ?_⟩
  rw [mem_blk]
  obtain ⟨e0, e1, e2, e3, e4, e5⟩ := idx_facts ⟨(i 0).val / 5000, hlt⟩
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 14 ≤ (i 1).val
      ∧ (i 1).val < win0_2.index ⟨(i 0).val / 5000, hlt⟩ (1 : Fin 2) * 14 + 14
    rw [e5]; omega

/-- The result array after the region: the reference's clipped product of the aggregated features. -/
theorem final (c : Dev nD)
    (x0 : (⟨Cert.ReferenceIdeal.S100000x64, .f32⟩ : BufTy).Contents (Elt Ideal))
    (x1 x2 : (⟨Cert.ReferenceIdeal.S1000000, .i32⟩ : BufTy).Contents (Elt Ideal))
    (x3 : (⟨Cert.ReferenceIdeal.S1000000, .f32⟩ : BufTy).Contents (Elt Ideal))
    (x4 : (⟨Cert.ReferenceIdeal.S64x14, .f32⟩ : BufTy).Contents (Elt Ideal))
    (hA : V c main_v12 = val_main_v12 (F := Ideal) x0 x1 x2 x3) (hW : V c main_arg4 = x4) :
    (dat0 V c).arrAt 2 cfg0.N = val_main_v14 (F := Ideal) x0 x1 x2 x3 x4 :=
  (dat0 V c).arrAt_eq_of_cover 2 (val_main_v14 (F := Ideal) x0 x1 x2 x3 x4)
    (fun t _ => flushed V c x0 x1 x2 x3 x4 hA hW t) cover

end Cert.KernelIdeal.Region0

end
-- ==== Proof.Stretches.lean ====
/-
  The host stretches of the kernel program, read back.

  Before the first kernel the host gathers the rows of X at the column indices (a negative index wrapped by the
  number of rows), scales edge e's row by vals[e] and scatter-adds it at rows[e]: the same sixteen operations, on
  the same arguments, as the reference's first sixteen.  Between the kernels it does the same to the first kernel's
  result and recasts the two bias vectors as one-row matrices.  Each stretch's results are therefore the
  reference's stages of the same operands; the arguments pass through every stretch and both regions untouched.
-/
import proofs.«166342_j65549790871682_1_alg».proof.Proof.Gen.KernelIdeal.Frame
import proofs.«166342_j65549790871682_1_alg».proof.Proof.Gen.ReferenceIdeal.Read
import proofs.«166342_j65549790871682_1_alg».proof.Proof.Region0
import Idealize.ShloMosaic.Lib.StableHlo.Run
import Idealize.ShloMosaic.Lib.ValueLayout

set_option maxRecDepth 16384

noncomputable section

namespace Cert.KernelIdeal.Stretches

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read (val_main_v12 val_main_v14 val_main_v27)

variable (m : (ℓ : Loc nD τ sig) → Buf (Elt Ideal) ℓ) (ρ : Dev nD → PrngReg)

/-! ## The first stretch -/

/-- The aggregated features the first kernel finds are the reference's. -/
theorem V1_v12 (c : Dev nD) :
    V1 m ρ c main_v12 = val_main_v12 (F := Ideal) (m ((c : Thread nD τ).loc main_arg0)) (m ((c : Thread nD τ).loc main_arg1)) (m ((c : Thread nD τ).loc main_arg2)) (m ((c : Thread nD τ).loc main_arg3)) := by
  show StableHlo.after (hostOps0 (F := Ideal)) (W0 m ρ c) (Proc.devRef .tc main_v12) = _
  after_results
  rfl

/-- The first layer's weights come through the first stretch untouched. -/
theorem V1_arg4 (c : Dev nD) : V1 m ρ c main_arg4 = m ((c : Thread nD τ).loc main_arg4) := by
  show StableHlo.after (hostOps0 (F := Ideal)) (W0 m ρ c) (Proc.devRef .tc main_arg4) = _
  after_results

/-! ## After the first kernel -/

/-- The first kernel's result array is the reference's clipped product. -/
theorem W2_v13 (c : Dev nD) :
    W2 m ρ c (Proc.devRef .tc main_v13) = val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 2).trans (Cert.KernelIdeal.Region0.final (V1 m ρ) c _ _ _ _ _ (V1_v12 m ρ c) (V1_arg4 m ρ c))

/-- The other arguments are no array of the first kernel and no result of the first stretch. -/
theorem W2_arg1 (c : Dev nD) : W2 m ρ c (Proc.devRef .tc main_arg1) = m ((c : Thread nD τ).loc main_arg1) :=
  (W2_of_ne m ρ c main_arg1 (by decide)).trans (by
    show StableHlo.after (hostOps0 (F := Ideal)) (W0 m ρ c) (Proc.devRef .tc main_arg1) = _
    after_results)
theorem W2_arg2 (c : Dev nD) : W2 m ρ c (Proc.devRef .tc main_arg2) = m ((c : Thread nD τ).loc main_arg2) :=
  (W2_of_ne m ρ c main_arg2 (by decide)).trans (by
    show StableHlo.after (hostOps0 (F := Ideal)) (W0 m ρ c) (Proc.devRef .tc main_arg2) = _
    after_results)
theorem W2_arg3 (c : Dev nD) : W2 m ρ c (Proc.devRef .tc main_arg3) = m ((c : Thread nD τ).loc main_arg3) :=
  (W2_of_ne m ρ c main_arg3 (by decide)).trans (by
    show StableHlo.after (hostOps0 (F := Ideal)) (W0 m ρ c) (Proc.devRef .tc main_arg3) = _
    after_results)
theorem W2_arg5 (c : Dev nD) : W2 m ρ c (Proc.devRef .tc main_arg5) = m ((c : Thread nD τ).loc main_arg5) :=
  (W2_of_ne m ρ c main_arg5 (by decide)).trans (by
    show StableHlo.after (hostOps0 (F := Ideal)) (W0 m ρ c) (Proc.devRef .tc main_arg5) = _
    after_results)
theorem W2_arg6 (c : Dev nD) : W2 m ρ c (Proc.devRef .tc main_arg6) = m ((c : Thread nD τ).loc main_arg6) :=
  (W2_of_ne m ρ c main_arg6 (by decide)).trans (by
    show StableHlo.after (hostOps0 (F := Ideal)) (W0 m ρ c) (Proc.devRef .tc main_arg6) = _
    after_results)
theorem W2_arg7 (c : Dev nD) : W2 m ρ c (Proc.devRef .tc main_arg7) = m ((c : Thread nD τ).loc main_arg7) :=
  (W2_of_ne m ρ c main_arg7 (by decide)).trans (by
    show StableHlo.after (hostOps0 (F := Ideal)) (W0 m ρ c) (Proc.devRef .tc main_arg7) = _
    after_results)
theorem W2_arg8 (c : Dev nD) : W2 m ρ c (Proc.devRef .tc main_arg8) = m ((c : Thread nD τ).loc main_arg8) :=
  (W2_of_ne m ρ c main_arg8 (by decide)).trans (by
    show StableHlo.after (hostOps0 (F := Ideal)) (W0 m ρ c) (Proc.devRef .tc main_arg8) = _
    after_results)
theorem W2_arg9 (c : Dev nD) : W2 m ρ c (Proc.devRef .tc main_arg9) = m ((c : Thread nD τ).loc main_arg9) :=
  (W2_of_ne m ρ c main_arg9 (by decide)).trans (by
    show StableHlo.after (hostOps0 (F := Ideal)) (W0 m ρ c) (Proc.devRef .tc main_arg9) = _
    after_results)

/-! ## The second stretch -/

set_option maxHeartbeats 1000000 in
/-- The twice-aggregated features the second kernel finds are the reference's. -/
theorem V3_v26 (c : Dev nD) :
    V3 m ρ c main_v26 = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold V3 W3
  after_results
  rw [W2_v13 m ρ c, W2_arg1 m ρ c, W2_arg2 m ρ c, W2_arg3 m ρ c]
  rfl

/-- The three weight matrices come through the second stretch untouched. -/
theorem V3_arg5 (c : Dev nD) : V3 m ρ c main_arg5 = m ((c : Thread nD τ).loc main_arg5) := by
  unfold V3 W3
  after_results
  exact W2_arg5 m ρ c
theorem V3_arg6 (c : Dev nD) : V3 m ρ c main_arg6 = m ((c : Thread nD τ).loc main_arg6) := by
  unfold V3 W3
  after_results
  exact W2_arg6 m ρ c
theorem V3_arg8 (c : Dev nD) : V3 m ρ c main_arg8 = m ((c : Thread nD τ).loc main_arg8) := by
  unfold V3 W3
  after_results
  exact W2_arg8 m ρ c

/-- The first head's bias, recast as a one-row matrix, read at an entry. -/
theorem V3_v27 (c : Dev nD) (k : Fin 14) :
    V3 m ρ c main_v27 (ix2 (0 : Fin 1) k) = m ((c : Thread nD τ).loc main_arg7) (ix1 k) := by
  have e : V3 m ρ c main_v27 = shapeCast S1x14 (m ((c : Thread nD τ).loc main_arg7)) shapeCasts_S14_S1x14 := by
    unfold V3 W3
    after_results
    rw [W2_arg7 m ρ c]
    rfl
  rw [e]
  exact shapeCast_a_1a_apply _ _ 0 k

/-- The second head's bias likewise. -/
theorem V3_v28 (c : Dev nD) (k : Fin 16) :
    V3 m ρ c main_v28 (ix2 (0 : Fin 1) k) = m ((c : Thread nD τ).loc main_arg9) (ix1 k) := by
  have e : V3 m ρ c main_v28 = shapeCast S1x16 (m ((c : Thread nD τ).loc main_arg9)) shapeCasts_S16_S1x16 := by
    unfold V3 W3
    after_results
    rw [W2_arg9 m ρ c]
    rfl
  rw [e]
  exact shapeCast_a_1a_apply _ _ 0 k

end Cert.KernelIdeal.Stretches

end
-- ==== Proof.Layer2Heads.lean ====
/-
  The second tiled kernel: the hidden row and the two tanh heads, one entry each.

  With the format changes the identity, a tile row a of the twice-aggregated features gives the hidden row
  h(l) = max(Σ_k a(k)·W2(k,l), 0), and the two heads tanh(Σ_l h(l)·Wd1(l,k) + bd1(k)) and
  tanh(Σ_l h(l)·Wd2(l,k) + bd2(k)).  The reference computes the same three expressions of the array row the
  tile row came from, its biases broadcast from vectors where the kernel's come as one-row matrices.
-/
import proofs.«166342_j65549790871682_1_alg».proof.Proof.Gen.KernelIdeal.Skeleton
import proofs.«166342_j65549790871682_1_alg».proof.Proof.Gen.ReferenceIdeal.Read
import proofs.«166342_j65549790871682_1_alg».proof.Proof.LibPlainMatmul
import Idealize.ShloMosaic.Lib.ValueLayout

noncomputable section

namespace Cert.Bridge.Layer2

open Idealize.ShloMosaic Idealize.ShloMosaic.ValueIdx
open Cert.ReferenceIdeal.Read

/-- The elementwise transcendentals read at an index, kernel's and host's. -/
theorem tanh_apply {s : Shape} {φ : FTy} (a : FVec Ideal s φ) (i : s.Idx) : tanh a i = Ideal.tanh (a i) := rfl

/-- The zero word is the real zero. -/
abbrev z : EReal := Ideal.ofBits .f32 0x00000000#32

section
variable (X : Vec Ideal Cert.KernelIdeal.S5000x14 .f32) (W2b Wd1b : Vec Ideal Cert.KernelIdeal.S14x14 .f32) (B1 : Vec Ideal Cert.KernelIdeal.S1x14 .f32)
  (Wd2b : Vec Ideal Cert.KernelIdeal.S14x16 .f32) (B2 : Vec Ideal Cert.KernelIdeal.S1x16 .f32)

/-- The kernel's hidden row at an entry. -/
theorem hid_pay (p : Fin 5000) (l : Fin 14) :
    Cert.KernelIdeal.Gen.k1_pay2 (F := Ideal) X W2b (ix2 p l) = max (∑ k : Fin 14, X (ix2 p k) * W2b (ix2 k l)) z := by
  unfold Cert.KernelIdeal.Gen.k1_pay2
  rw [truncf_apply, maximumf_apply]
  refine congrArg₂ max ?_ rfl
  refine (PlainMatmul.matmul_zero_apply Cert.KernelIdeal.dot_S5000x14_S14x14_S5000x14_1_0_0_1_n_n rfl rfl rfl rfl rfl rfl none _ _ p l).trans ?_
  refine Finset.sum_congr rfl fun k _ => ?_
  rw [truncf_apply, truncf_apply, shapeCast_self]

/-- The kernel's first head at an entry. -/
theorem head1_pay (p : Fin 5000) (k : Fin 14) :
    Cert.KernelIdeal.Gen.k1_pay3 (F := Ideal) X W2b Wd1b B1 (ix2 p k)
      = Ideal.tanh ((∑ l : Fin 14, Cert.KernelIdeal.Gen.k1_pay2 (F := Ideal) X W2b (ix2 p l) * Wd1b (ix2 l k)) + B1 (ix2 (0 : Fin 1) k)) := by
  unfold Cert.KernelIdeal.Gen.k1_pay3
  refine (tanh_apply _ _).trans (congrArg Ideal.tanh ((addf_apply _ _ _).trans (congrArg₂ (· + ·) ?_ ?_)))
  · refine (PlainMatmul.matmul_zero_apply Cert.KernelIdeal.dot_S5000x14_S14x14_S5000x14_1_0_0_1_n_n rfl rfl rfl rfl rfl rfl none _ _ p k).trans ?_
    refine Finset.sum_congr rfl fun l _ => ?_
    rw [truncf_apply]
  · rw [broadcastTo_1b_ab_apply, shapeCast_self]

/-- The kernel's second head at an entry. -/
theorem head2_pay (p : Fin 5000) (k : Fin 16) :
    Cert.KernelIdeal.Gen.k1_pay4 (F := Ideal) X W2b Wd2b B2 (ix2 p k)
      = Ideal.tanh ((∑ l : Fin 14, Cert.KernelIdeal.Gen.k1_pay2 (F := Ideal) X W2b (ix2 p l) * Wd2b (ix2 l k)) + B2 (ix2 (0 : Fin 1) k)) := by
  unfold Cert.KernelIdeal.Gen.k1_pay4
  refine (tanh_apply _ _).trans (congrArg Ideal.tanh ((addf_apply _ _ _).trans (congrArg₂ (· + ·) ?_ ?_)))
  · refine (PlainMatmul.matmul_zero_apply Cert.KernelIdeal.dot_S5000x14_S14x16_S5000x16_1_0_0_1_n_n rfl rfl rfl rfl rfl rfl none _ _ p k).trans ?_
    refine Finset.sum_congr rfl fun l _ => ?_
    rw [truncf_apply]
  · rw [broadcastTo_1b_ab_apply, shapeCast_self]

end

section
variable (x0 : (⟨Cert.ReferenceIdeal.S100000x64, .f32⟩ : BufTy).Contents (Elt Ideal))
    (x1 x2 : (⟨Cert.ReferenceIdeal.S1000000, .i32⟩ : BufTy).Contents (Elt Ideal))
    (x3 : (⟨Cert.ReferenceIdeal.S1000000, .f32⟩ : BufTy).Contents (Elt Ideal))
    (x4 : (⟨Cert.ReferenceIdeal.S64x14, .f32⟩ : BufTy).Contents (Elt Ideal))
    (x5 : (⟨Cert.ReferenceIdeal.S14x14, .f32⟩ : BufTy).Contents (Elt Ideal))

/-- The reference's hidden row at an entry. -/
theorem hid_ref (r : Fin 100000) (l : Fin 14) :
    val_main_v29 (F := Ideal) x0 x1 x2 x3 x4 x5 (ix2 r l)
      = max (∑ k : Fin 14, val_main_v27 (F := Ideal) x0 x1 x2 x3 x4 (ix2 r k) * x5 (ix2 k l)) z := by
  rw [val_main_v29_apply, val_main_v28_apply, val_main_call1_v0_apply, val_main_call1_cst_apply]
  refine congrArg₂ max (Finset.sum_congr rfl fun k _ => ?_) rfl
  have el : lidx_main_v28 (ix2 r l) k = ix2 r k := funext fun a => match a with | ⟨0, _⟩ => rfl | ⟨1, _⟩ => rfl
  have er : ridx_main_v28 (ix2 r l) k = ix2 k l := funext fun a => match a with | ⟨0, _⟩ => rfl | ⟨1, _⟩ => rfl
  rw [el, er]

/-- The reference's first head at an entry. -/
theorem head1_ref (x6 : (⟨Cert.ReferenceIdeal.S14x14, .f32⟩ : BufTy).Contents (Elt Ideal)) (x7 : (⟨Cert.ReferenceIdeal.S14, .f32⟩ : BufTy).Contents (Elt Ideal))
    (r : Fin 100000) (k : Fin 14) :
    val_main_v34 (F := Ideal) x0 x1 x2 x3 x4 x5 x6 x7 (ix2 r k)
      = Ideal.tanh ((∑ l : Fin 14, val_main_v29 (F := Ideal) x0 x1 x2 x3 x4 x5 (ix2 r l) * x6 (ix2 l k)) + x7 (ix1 k)) := by
  have e1 : ∀ l : Fin 14, lidx_main_v30 (ix2 r k) l = ix2 r l := fun l => funext fun a => match a with | ⟨0, _⟩ => rfl | ⟨1, _⟩ => rfl
  have e2 : ∀ l : Fin 14, ridx_main_v30 (ix2 r k) l = ix2 l k := fun l => funext fun a => match a with | ⟨0, _⟩ => rfl | ⟨1, _⟩ => rfl
  have e3 : idx_main_v31 (idx_main_v32 (ix2 r k)) = ix1 k := funext fun a => match a with | ⟨0, _⟩ => rfl
  rw [val_main_v34_apply, val_main_v33_apply, val_main_v30_apply, val_main_v32_apply, val_main_v31_apply, e3, Ideal.hostUnary_tanh_def]
  simp only [e1, e2]
  rfl

/-- The reference's second head at an entry. -/
theorem head2_ref (x8 : (⟨Cert.ReferenceIdeal.S14x16, .f32⟩ : BufTy).Contents (Elt Ideal)) (x9 : (⟨Cert.ReferenceIdeal.S16, .f32⟩ : BufTy).Contents (Elt Ideal))
    (r : Fin 100000) (k : Fin 16) :
    val_main_v39 (F := Ideal) x0 x1 x2 x3 x4 x5 x8 x9 (ix2 r k)
      = Ideal.tanh ((∑ l : Fin 14, val_main_v29 (F := Ideal) x0 x1 x2 x3 x4 x5 (ix2 r l) * x8 (ix2 l k)) + x9 (ix1 k)) := by
  have e1 : ∀ l : Fin 14, lidx_main_v35 (ix2 r k) l = ix2 r l := fun l => funext fun a => match a with | ⟨0, _⟩ => rfl | ⟨1, _⟩ => rfl
  have e2 : ∀ l : Fin 14, ridx_main_v35 (ix2 r k) l = ix2 l k := fun l => funext fun a => match a with | ⟨0, _⟩ => rfl | ⟨1, _⟩ => rfl
  have e3 : idx_main_v36 (idx_main_v37 (ix2 r k)) = ix1 k := funext fun a => match a with | ⟨0, _⟩ => rfl
  rw [val_main_v39_apply, val_main_v38_apply, val_main_v35_apply, val_main_v37_apply, val_main_v36_apply, e3, Ideal.hostUnary_tanh_def]
  simp only [e1, e2]
  rfl

end

/-- What the tile row and the parameter blocks hold, against the reference's stage and arguments. -/
structure Agree (X : Vec Ideal Cert.KernelIdeal.S5000x14 .f32) (W2b Wd1b : Vec Ideal Cert.KernelIdeal.S14x14 .f32) (B1 : Vec Ideal Cert.KernelIdeal.S1x14 .f32)
    (Wd2b : Vec Ideal Cert.KernelIdeal.S14x16 .f32) (B2 : Vec Ideal Cert.KernelIdeal.S1x16 .f32)
    (x0 : (⟨Cert.ReferenceIdeal.S100000x64, .f32⟩ : BufTy).Contents (Elt Ideal))
    (x1 x2 : (⟨Cert.ReferenceIdeal.S1000000, .i32⟩ : BufTy).Contents (Elt Ideal))
    (x3 : (⟨Cert.ReferenceIdeal.S1000000, .f32⟩ : BufTy).Contents (Elt Ideal))
    (x4 : (⟨Cert.ReferenceIdeal.S64x14, .f32⟩ : BufTy).Contents (Elt Ideal))
    (x5 : (⟨Cert.ReferenceIdeal.S14x14, .f32⟩ : BufTy).Contents (Elt Ideal))
    (x6 : (⟨Cert.ReferenceIdeal.S14x14, .f32⟩ : BufTy).Contents (Elt Ideal)) (x7 : (⟨Cert.ReferenceIdeal.S14, .f32⟩ : BufTy).Contents (Elt Ideal))
    (x8 : (⟨Cert.ReferenceIdeal.S14x16, .f32⟩ : BufTy).Contents (Elt Ideal)) (x9 : (⟨Cert.ReferenceIdeal.S16, .f32⟩ : BufTy).Contents (Elt Ideal))
    (p : Fin 5000) (r : Fin 100000) : Prop where
  hX : ∀ k : Fin 14, X (ix2 p k) = val_main_v27 (F := Ideal) x0 x1 x2 x3 x4 (ix2 r k)
  hW2 : ∀ k l : Fin 14, W2b (ix2 k l) = x5 (ix2 k l)
  hWd1 : ∀ k l : Fin 14, Wd1b (ix2 k l) = x6 (ix2 k l)
  hB1 : ∀ k : Fin 14, B1 (ix2 (0 : Fin 1) k) = x7 (ix1 k)
  hWd2 : ∀ (k : Fin 14) (l : Fin 16), Wd2b (ix2 k l) = x8 (ix2 k l)
  hB2 : ∀ k : Fin 16, B2 (ix2 (0 : Fin 1) k) = x9 (ix1 k)

section
variable {X : Vec Ideal Cert.KernelIdeal.S5000x14 .f32} {W2b Wd1b : Vec Ideal Cert.KernelIdeal.S14x14 .f32} {B1 : Vec Ideal Cert.KernelIdeal.S1x14 .f32}
  {Wd2b : Vec Ideal Cert.KernelIdeal.S14x16 .f32} {B2 : Vec Ideal Cert.KernelIdeal.S1x16 .f32}
  {x0 : (⟨Cert.ReferenceIdeal.S100000x64, .f32⟩ : BufTy).Contents (Elt Ideal)}
  {x1 x2 : (⟨Cert.ReferenceIdeal.S1000000, .i32⟩ : BufTy).Contents (Elt Ideal)}
  {x3 : (⟨Cert.ReferenceIdeal.S1000000, .f32⟩ : BufTy).Contents (Elt Ideal)}
  {x4 : (⟨Cert.ReferenceIdeal.S64x14, .f32⟩ : BufTy).Contents (Elt Ideal)}
  {x5 x6 : (⟨Cert.ReferenceIdeal.S14x14, .f32⟩ : BufTy).Contents (Elt Ideal)} {x7 : (⟨Cert.ReferenceIdeal.S14, .f32⟩ : BufTy).Contents (Elt Ideal)}
  {x8 : (⟨Cert.ReferenceIdeal.S14x16, .f32⟩ : BufTy).Contents (Elt Ideal)} {x9 : (⟨Cert.ReferenceIdeal.S16, .f32⟩ : BufTy).Contents (Elt Ideal)}
  {p : Fin 5000} {r : Fin 100000}

/-- The hidden rows agree. -/
theorem hid (h : Agree X W2b Wd1b B1 Wd2b B2 x0 x1 x2 x3 x4 x5 x6 x7 x8 x9 p r) (l : Fin 14) :
    Cert.KernelIdeal.Gen.k1_pay2 (F := Ideal) X W2b (ix2 p l) = val_main_v29 (F := Ideal) x0 x1 x2 x3 x4 x5 (ix2 r l) := by
  rw [hid_pay, hid_ref]
  refine congrArg₂ max (Finset.sum_congr rfl fun k _ => ?_) rfl
  rw [h.hX, h.hW2]

/-- The first heads agree. -/
theorem head1 (h : Agree X W2b Wd1b B1 Wd2b B2 x0 x1 x2 x3 x4 x5 x6 x7 x8 x9 p r) (k : Fin 14) :
    Cert.KernelIdeal.Gen.k1_pay3 (F := Ideal) X W2b Wd1b B1 (ix2 p k) = val_main_v34 (F := Ideal) x0 x1 x2 x3 x4 x5 x6 x7 (ix2 r k) := by
  rw [head1_pay, head1_ref]
  refine congrArg Ideal.tanh (congrArg₂ (· + ·) (Finset.sum_congr rfl fun l _ => ?_) (h.hB1 k))
  rw [hid h, h.hWd1]

/-- The second heads agree. -/
theorem head2 (h : Agree X W2b Wd1b B1 Wd2b B2 x0 x1 x2 x3 x4 x5 x6 x7 x8 x9 p r) (k : Fin 16) :
    Cert.KernelIdeal.Gen.k1_pay4 (F := Ideal) X W2b Wd2b B2 (ix2 p k) = val_main_v39 (F := Ideal) x0 x1 x2 x3 x4 x5 x8 x9 (ix2 r k) := by
  rw [head2_pay, head2_ref]
  refine congrArg Ideal.tanh (congrArg₂ (· + ·) (Finset.sum_congr rfl fun l _ => ?_) (h.hB2 k))
  rw [hid h, h.hWd2]

end

end Cert.Bridge.Layer2

end
-- ==== Proof.LibConcatCols.lean ====
/-
  Four matrices joined along their columns, read at one entry.

  The concatenation of matrices with a common number of rows and widths n₁, n₂, n₃, n₄ along axis 1 holds, at
  (p, q), the entry (p, q − the widths before) of the piece whose column span contains q.  Two such
  concatenations, over different numbers of rows, therefore agree at a pair of rows as soon as their pieces do.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type} {a n1 n2 n3 n4 n : Nat}

/-- Columns below n₁ come from the first piece. -/
theorem piece1 (x1 : (⟨2, ![a, n1]⟩ : Shape).Idx → α) (x2 : (⟨2, ![a, n2]⟩ : Shape).Idx → α)
    (x3 : (⟨2, ![a, n3]⟩ : Shape).Idx → α) (x4 : (⟨2, ![a, n4]⟩ : Shape).Idx → α)
    (h : Shape.Concatenates [⟨2, ![a, n1]⟩, ⟨2, ![a, n2]⟩, ⟨2, ![a, n3]⟩, ⟨2, ![a, n4]⟩] ⟨2, ![a, n]⟩ 1)
    (p : Fin a) (q : Fin n) (hq : q.val < n1) :
    concatenate ⟨2, ![a, n]⟩ 1 [⟨⟨2, ![a, n1]⟩, x1⟩, ⟨⟨2, ![a, n2]⟩, x2⟩, ⟨⟨2, ![a, n3]⟩, x3⟩, ⟨⟨2, ![a, n4]⟩, x4⟩] h (ix2 p q)
      = x1 (ix2 p ⟨q.val, hq⟩) :=
  concatenate_apply_piece 1 [⟨⟨2, ![a, n1]⟩, x1⟩, ⟨⟨2, ![a, n2]⟩, x2⟩, ⟨⟨2, ![a, n3]⟩, x3⟩, ⟨⟨2, ![a, n4]⟩, x4⟩] h (ix2 p q) 0 (Nat.succ_pos 3) _ x1 rfl rfl 0 rfl (ix2 p ⟨q.val, hq⟩)
    (fun b hb => match b with
      | ⟨0, _⟩ => rfl
      | ⟨1, _⟩ => absurd rfl hb)
    (Nat.zero_add _)

/-- Columns from n₁ up to n₁ + n₂ come from the second piece. -/
theorem piece2 (x1 : (⟨2, ![a, n1]⟩ : Shape).Idx → α) (x2 : (⟨2, ![a, n2]⟩ : Shape).Idx → α)
    (x3 : (⟨2, ![a, n3]⟩ : Shape).Idx → α) (x4 : (⟨2, ![a, n4]⟩ : Shape).Idx → α)
    (h : Shape.Concatenates [⟨2, ![a, n1]⟩, ⟨2, ![a, n2]⟩, ⟨2, ![a, n3]⟩, ⟨2, ![a, n4]⟩] ⟨2, ![a, n]⟩ 1)
    (p : Fin a) (q : Fin n) (j : Fin n2) (hj : n1 + j.val = q.val) :
    concatenate ⟨2, ![a, n]⟩ 1 [⟨⟨2, ![a, n1]⟩, x1⟩, ⟨⟨2, ![a, n2]⟩, x2⟩, ⟨⟨2, ![a, n3]⟩, x3⟩, ⟨⟨2, ![a, n4]⟩, x4⟩] h (ix2 p q)
      = x2 (ix2 p j) :=
  concatenate_apply_piece 1 [⟨⟨2, ![a, n1]⟩, x1⟩, ⟨⟨2, ![a, n2]⟩, x2⟩, ⟨⟨2, ![a, n3]⟩, x3⟩, ⟨⟨2, ![a, n4]⟩, x4⟩] h (ix2 p q) 1 (Nat.succ_lt_succ (Nat.succ_pos 2)) _ x2 rfl rfl n1 (Nat.add_zero _) (ix2 p j)
    (fun b hb => match b with
      | ⟨0, _⟩ => rfl
      | ⟨1, _⟩ => absurd rfl hb)
    hj

/-- Columns from n₁ + n₂ up to n₁ + n₂ + n₃ come from the third piece. -/
theorem piece3 (x1 : (⟨2, ![a, n1]⟩ : Shape).Idx → α) (x2 : (⟨2, ![a, n2]⟩ : Shape).Idx → α)
    (x3 : (⟨2, ![a, n3]⟩ : Shape).Idx → α) (x4 : (⟨2, ![a, n4]⟩ : Shape).Idx → α)
    (h : Shape.Concatenates [⟨2, ![a, n1]⟩, ⟨2, ![a, n2]⟩, ⟨2, ![a, n3]⟩, ⟨2, ![a, n4]⟩] ⟨2, ![a, n]⟩ 1)
    (p : Fin a) (q : Fin n) (j : Fin n3) (hj : n1 + n2 + j.val = q.val) :
    concatenate ⟨2, ![a, n]⟩ 1 [⟨⟨2, ![a, n1]⟩, x1⟩, ⟨⟨2, ![a, n2]⟩, x2⟩, ⟨⟨2, ![a, n3]⟩, x3⟩, ⟨⟨2, ![a, n4]⟩, x4⟩] h (ix2 p q)
      = x3 (ix2 p j) :=
  concatenate_apply_piece 1 [⟨⟨2, ![a, n1]⟩, x1⟩, ⟨⟨2, ![a, n2]⟩, x2⟩, ⟨⟨2, ![a, n3]⟩, x3⟩, ⟨⟨2, ![a, n4]⟩, x4⟩] h (ix2 p q) 2 (Nat.succ_lt_succ (Nat.succ_lt_succ (Nat.succ_pos 1))) _ x3 rfl rfl (n1 + n2)
    (show n1 + (n2 + 0) = n1 + n2 from rfl) (ix2 p j)
    (fun b hb => match b with
      | ⟨0, _⟩ => rfl
      | ⟨1, _⟩ => absurd rfl hb)
    hj

/-- Columns from n₁ + n₂ + n₃ on come from the fourth piece. -/
theorem piece4 (x1 : (⟨2, ![a, n1]⟩ : Shape).Idx → α) (x2 : (⟨2, ![a, n2]⟩ : Shape).Idx → α)
    (x3 : (⟨2, ![a, n3]⟩ : Shape).Idx → α) (x4 : (⟨2, ![a, n4]⟩ : Shape).Idx → α)
    (h : Shape.Concatenates [⟨2, ![a, n1]⟩, ⟨2, ![a, n2]⟩, ⟨2, ![a, n3]⟩, ⟨2, ![a, n4]⟩] ⟨2, ![a, n]⟩ 1)
    (p : Fin a) (q : Fin n) (j : Fin n4) (hj : n1 + n2 + n3 + j.val = q.val) :
    concatenate ⟨2, ![a, n]⟩ 1 [⟨⟨2, ![a, n1]⟩, x1⟩, ⟨⟨2, ![a, n2]⟩, x2⟩, ⟨⟨2, ![a, n3]⟩, x3⟩, ⟨⟨2, ![a, n4]⟩, x4⟩] h (ix2 p q)
      = x4 (ix2 p j) :=
  concatenate_apply_piece 1 [⟨⟨2, ![a, n1]⟩, x1⟩, ⟨⟨2, ![a, n2]⟩, x2⟩, ⟨⟨2, ![a, n3]⟩, x3⟩, ⟨⟨2, ![a, n4]⟩, x4⟩] h (ix2 p q) 3 (Nat.lt_succ_self 3) _ x4 rfl rfl (n1 + n2 + n3)
    (show n1 + (n2 + (n3 + 0)) = n1 + n2 + n3 from (Nat.add_assoc n1 n2 n3).symm) (ix2 p j)
    (fun b hb => match b with
      | ⟨0, _⟩ => rfl
      | ⟨1, _⟩ => absurd rfl hb)
    hj

/-- Two concatenations of four pieces of the same widths, over a and A rows: if at rows p and i the pieces
    agree entry by entry, so do the concatenations. -/
theorem congr_rows {A : Nat}
    (x1 : (⟨2, ![a, n1]⟩ : Shape).Idx → α) (x2 : (⟨2, ![a, n2]⟩ : Shape).Idx → α)
    (x3 : (⟨2, ![a, n3]⟩ : Shape).Idx → α) (x4 : (⟨2, ![a, n4]⟩ : Shape).Idx → α)
    (y1 : (⟨2, ![A, n1]⟩ : Shape).Idx → α) (y2 : (⟨2, ![A, n2]⟩ : Shape).Idx → α)
    (y3 : (⟨2, ![A, n3]⟩ : Shape).Idx → α) (y4 : (⟨2, ![A, n4]⟩ : Shape).Idx → α)
    (h : Shape.Concatenates [⟨2, ![a, n1]⟩, ⟨2, ![a, n2]⟩, ⟨2, ![a, n3]⟩, ⟨2, ![a, n4]⟩] ⟨2, ![a, n]⟩ 1)
    (h' : Shape.Concatenates [⟨2, ![A, n1]⟩, ⟨2, ![A, n2]⟩, ⟨2, ![A, n3]⟩, ⟨2, ![A, n4]⟩] ⟨2, ![A, n]⟩ 1)
    (hn : n = n1 + n2 + n3 + n4) (p : Fin a) (i : Fin A)
    (e1 : ∀ j, x1 (ix2 p j) = y1 (ix2 i j)) (e2 : ∀ j, x2 (ix2 p j) = y2 (ix2 i j))
    (e3 : ∀ j, x3 (ix2 p j) = y3 (ix2 i j)) (e4 : ∀ j, x4 (ix2 p j) = y4 (ix2 i j)) (q : Fin n) :
    concatenate ⟨2, ![a, n]⟩ 1 [⟨⟨2, ![a, n1]⟩, x1⟩, ⟨⟨2, ![a, n2]⟩, x2⟩, ⟨⟨2, ![a, n3]⟩, x3⟩, ⟨⟨2, ![a, n4]⟩, x4⟩] h (ix2 p q)
      = concatenate ⟨2, ![A, n]⟩ 1 [⟨⟨2, ![A, n1]⟩, y1⟩, ⟨⟨2, ![A, n2]⟩, y2⟩, ⟨⟨2, ![A, n3]⟩, y3⟩, ⟨⟨2, ![A, n4]⟩, y4⟩] h' (ix2 i q) := by
  have hq := q.isLt
  by_cases c1 : q.val < n1
  · rw [piece1 x1 x2 x3 x4 h p q c1, piece1 y1 y2 y3 y4 h' i q c1]; exact e1 _
  by_cases c2 : q.val < n1 + n2
  · rw [piece2 x1 x2 x3 x4 h p q ⟨q.val - n1, by omega⟩ (by show n1 + (q.val - n1) = q.val; omega),
      piece2 y1 y2 y3 y4 h' i q ⟨q.val - n1, by omega⟩ (by show n1 + (q.val - n1) = q.val; omega)]
    exact e2 _
  by_cases c3 : q.val < n1 + n2 + n3
  · rw [piece3 x1 x2 x3 x4 h p q ⟨q.val - (n1 + n2), by omega⟩ (by show n1 + n2 + (q.val - (n1 + n2)) = q.val; omega),
      piece3 y1 y2 y3 y4 h' i q ⟨q.val - (n1 + n2), by omega⟩ (by show n1 + n2 + (q.val - (n1 + n2)) = q.val; omega)]
    exact e3 _
  · rw [piece4 x1 x2 x3 x4 h p q ⟨q.val - (n1 + n2 + n3), by omega⟩ (by show n1 + n2 + n3 + (q.val - (n1 + n2 + n3)) = q.val; omega),
      piece4 y1 y2 y3 y4 h' i q ⟨q.val - (n1 + n2 + n3), by omega⟩ (by show n1 + n2 + n3 + (q.val - (n1 + n2 + n3)) = q.val; omega)]
    exact e4 _

end Idealize.ShloMosaic.ConcatCols

end
-- ==== Proof.Layer2Out.lean ====
/-
  The second tiled kernel: its thirty output columns.

  A result row is four pieces side by side: columns 0–6 of the first head; the softplus of columns 7–13 of the
  first head shifted by a constant; and all sixteen columns of the second head, as its first fourteen and its last
  two.  The softplus is written max(y, 0) + log(1 + exp(−|y − 0|)) behind a test "y − 0 ≠ y − 0" that never holds
  on the extended reals; the kernel negates by 0 − x where the reference negates, and 0 − x = −x at the infinities
  too.  Piece by piece the kernel's tile row equals the reference's array row, and so do the concatenations.
-/
import proofs.«166342_j65549790871682_1_alg».proof.Proof.Layer2Heads
import proofs.«166342_j65549790871682_1_alg».proof.Proof.LibConcatCols
import Idealize.ShloMosaic.Lib.KernelVsHost

noncomputable section

namespace Cert.Bridge.Layer2

open Idealize.ShloMosaic Idealize.ShloMosaic.ValueIdx
open Cert.ReferenceIdeal.Read

/-! ## The softplus on one value, in the kernel's spelling and in the host's -/

/-- The zero word and the shift constant, as the instance reads them. -/
abbrev zf : Ideal .f32 := FloatOps.ofBits (F := Ideal) .f32 0x00000000#32
abbrev cf : Ideal .f32 := FloatOps.ofBits (F := Ideal) .f32 0x3F0A9444#32

/-- The kernel's spelling: ordered "≠" on y − 0 with itself, 0 − |y − 0| for the negation. -/
def spK (y : Ideal .f32) : Ideal .f32 :=
  Scalar.select (FloatOps.cmpf .one (FloatOps.subf y zf) (FloatOps.subf y zf)) (FloatOps.addf y zf)
    (FloatOps.addf (FloatOps.maximumf y zf) (FloatOps.log1p (FloatOps.exp (FloatOps.subf zf (FloatOps.absf (FloatOps.subf y zf))))))

/-- The host's spelling: unordered "≠", the host's abs, negate, exponential and log-plus-one. -/
def spR (y : Ideal .f32) : Ideal .f32 :=
  Scalar.select (FloatOps.cmpf .une (FloatOps.subf y zf) (FloatOps.subf y zf)) (FloatOps.addf y zf)
    (FloatOps.addf (FloatOps.maximumf y zf)
      (FloatOps.hostUnary .log1p (FloatOps.hostUnary .exp (FloatOps.hostNegf (FloatOps.hostAbsf (FloatOps.subf y zf))))))

/-- No extended real differs from itself, ordered or not. -/
theorem cmp_self (d : Ideal .f32) :
    FloatOps.cmpf (F := Ideal) .one d d = 0#1 ∧ FloatOps.cmpf (F := Ideal) .une d d = 0#1 := by
  constructor <;> (show Ideal.cmp _ d d = 0#1; simp [Ideal.cmp])

/-- The two spellings are one function. -/
theorem spK_eq_spR (y : Ideal .f32) : spK y = spR y := by
  unfold spK spR
  rw [(cmp_self _).1, (cmp_self _).2, select_zero, select_zero, Idealize.ShloMosaic.Ideal.subf_zero_eq_hostNegf,
    Ideal.hostAbsf_def, Ideal.hostUnary_exp_def, Ideal.hostUnary_log1p_def, Ideal.exp_def, Ideal.log1p_def]

/-! ## The kernel's pieces at an entry -/

theorem exp_apply {s : Shape} {φ : FTy} (a : FVec Ideal s φ) (i : s.Idx) : exp a i = FloatOps.exp (a i) := rfl
theorem log1p_apply {s : Shape} {φ : FTy} (a : FVec Ideal s φ) (i : s.Idx) : log1p a i = FloatOps.log1p (a i) := rfl
theorem absf_apply {s : Shape} {φ : FTy} (a : FVec Ideal s φ) (i : s.Idx) : absf a i = FloatOps.absf (a i) := rfl
theorem addf_ap {s : Shape} {φ : FTy} (a b : FVec Ideal s φ) (i : s.Idx) : addf a b i = FloatOps.addf (a i) (b i) := rfl
theorem subf_ap {s : Shape} {φ : FTy} (a b : FVec Ideal s φ) (i : s.Idx) : subf a b i = FloatOps.subf (a i) (b i) := rfl
theorem maximumf_ap {s : Shape} {φ : FTy} (a b : FVec Ideal s φ) (i : s.Idx) : maximumf a b i = FloatOps.maximumf (a i) (b i) := rfl

section
variable (X : Vec Ideal Cert.KernelIdeal.S5000x14 .f32) (W2b Wd1b : Vec Ideal Cert.KernelIdeal.S14x14 .f32) (B1 : Vec Ideal Cert.KernelIdeal.S1x14 .f32)

/-- Columns 0–6 of the first head. -/
theorem pay5_apply (p : Fin 5000) (j : Fin 7) (k : Fin 14) (hk : k.val = 0 + j.val) :
    Cert.KernelIdeal.Gen.k1_pay5 (F := Ideal) X W2b Wd1b B1 (ix2 p j) = Cert.KernelIdeal.Gen.k1_pay3 (F := Ideal) X W2b Wd1b B1 (ix2 p k) := by
  unfold Cert.KernelIdeal.Gen.k1_pay5
  exact slice2_axis1_apply 0 _ _ p j k hk

/-- Columns 7–13 of the first head, shifted. -/
theorem pay6_apply (p : Fin 5000) (j : Fin 7) (k : Fin 14) (hk : k.val = 7 + j.val) :
    Cert.KernelIdeal.Gen.k1_pay6 (F := Ideal) X W2b Wd1b B1 (ix2 p j)
      = FloatOps.addf (Cert.KernelIdeal.Gen.k1_pay3 (F := Ideal) X W2b Wd1b B1 (ix2 p k)) cf := by
  unfold Cert.KernelIdeal.Gen.k1_pay6
  show FloatOps.addf (extractStridedSlice Cert.KernelIdeal.S5000x7 ![0, 7] (Cert.KernelIdeal.Gen.k1_pay3 (F := Ideal) X W2b Wd1b B1) _ (ix2 p j)) cf = _
  rw [slice2_axis1_apply 7 _ _ p j k hk]

/-- Columns 0–13 and 14–15 of the second head. -/
theorem pay4_lo (Wd2b : Vec Ideal Cert.KernelIdeal.S14x16 .f32) (B2 : Vec Ideal Cert.KernelIdeal.S1x16 .f32) (p : Fin 5000) (j : Fin 14) (k : Fin 16)
    (hk : k.val = 0 + j.val) :
    extractStridedSlice Cert.KernelIdeal.S5000x14 ![0, 0] (Cert.KernelIdeal.Gen.k1_pay4 (F := Ideal) X W2b Wd2b B2) Cert.KernelIdeal.Gen.slices_S5000x16_o0_0_S5000x14 (ix2 p j)
      = Cert.KernelIdeal.Gen.k1_pay4 (F := Ideal) X W2b Wd2b B2 (ix2 p k) :=
  slice2_axis1_apply 0 _ _ p j k hk
theorem pay4_hi (Wd2b : Vec Ideal Cert.KernelIdeal.S14x16 .f32) (B2 : Vec Ideal Cert.KernelIdeal.S1x16 .f32) (p : Fin 5000) (j : Fin 2) (k : Fin 16)
    (hk : k.val = 14 + j.val) :
    extractStridedSlice Cert.KernelIdeal.S5000x2 ![0, 14] (Cert.KernelIdeal.Gen.k1_pay4 (F := Ideal) X W2b Wd2b B2) Cert.KernelIdeal.Gen.slices_S5000x16_o0_14_S5000x2 (ix2 p j)
      = Cert.KernelIdeal.Gen.k1_pay4 (F := Ideal) X W2b Wd2b B2 (ix2 p k) :=
  slice2_axis1_apply 14 _ _ p j k hk

/-- The kernel's softplus piece is its spelling of the softplus at the shifted entry. -/
theorem softplus_pay (p : Fin 5000) (j : Fin 7) :
    select (Cert.KernelIdeal.Gen.k1_pay9 (F := Ideal) X W2b Wd1b B1) (Cert.KernelIdeal.Gen.k1_pay10 (F := Ideal) X W2b Wd1b B1)
        (addf (Cert.KernelIdeal.Gen.k1_pay7 (F := Ideal) X W2b Wd1b B1) (log1p (Cert.KernelIdeal.Gen.k1_pay11 (F := Ideal) X W2b Wd1b B1))) (ix2 p j)
      = spK (Cert.KernelIdeal.Gen.k1_pay6 (F := Ideal) X W2b Wd1b B1 (ix2 p j)) := by
  unfold Cert.KernelIdeal.Gen.k1_pay9 Cert.KernelIdeal.Gen.k1_pay10 Cert.KernelIdeal.Gen.k1_pay7 Cert.KernelIdeal.Gen.k1_pay11 Cert.KernelIdeal.Gen.k1_pay8 spK
  simp only [select_apply, cmpf_apply, addf_ap, subf_ap, maximumf_ap, log1p_apply, exp_apply, absf_apply, broadcast_apply]

end

/-! ## The reference's pieces at an entry -/

section
variable (x0 : (⟨Cert.ReferenceIdeal.S100000x64, .f32⟩ : BufTy).Contents (Elt Ideal))
    (x1 x2 : (⟨Cert.ReferenceIdeal.S1000000, .i32⟩ : BufTy).Contents (Elt Ideal))
    (x3 : (⟨Cert.ReferenceIdeal.S1000000, .f32⟩ : BufTy).Contents (Elt Ideal))
    (x4 : (⟨Cert.ReferenceIdeal.S64x14, .f32⟩ : BufTy).Contents (Elt Ideal))
    (x5 x6 : (⟨Cert.ReferenceIdeal.S14x14, .f32⟩ : BufTy).Contents (Elt Ideal)) (x7 : (⟨Cert.ReferenceIdeal.S14, .f32⟩ : BufTy).Contents (Elt Ideal))
    (x8 : (⟨Cert.ReferenceIdeal.S14x16, .f32⟩ : BufTy).Contents (Elt Ideal)) (x9 : (⟨Cert.ReferenceIdeal.S16, .f32⟩ : BufTy).Contents (Elt Ideal))

/-- Columns 0–6 of the reference's first head. -/
theorem v40_at (r : Fin 100000) (j : Fin 7) (k : Fin 14) (hk : k.val = 0 + j.val) :
    val_main_v40 (F := Ideal) x0 x1 x2 x3 x4 x5 x6 x7 (ix2 r j) = val_main_v34 (F := Ideal) x0 x1 x2 x3 x4 x5 x6 x7 (ix2 r k) := by
  rw [val_main_v40_apply]
  refine congrArg (val_main_v34 (F := Ideal) x0 x1 x2 x3 x4 x5 x6 x7) ?_
  funext a; apply Fin.ext
  match a with
  | ⟨0, _⟩ => rfl
  | ⟨1, _⟩ => show j.val = k.val; omega

/-- Columns 7–13 of the reference's first head, shifted. -/
theorem v43_at (r : Fin 100000) (j : Fin 7) (k : Fin 14) (hk : k.val = 7 + j.val) :
    val_main_v43 (F := Ideal) x0 x1 x2 x3 x4 x5 x6 x7 (ix2 r j)
      = FloatOps.addf (val_main_v34 (F := Ideal) x0 x1 x2 x3 x4 x5 x6 x7 (ix2 r k)) cf := by
  have e : idx_main_v41 (ix2 r j) = ix2 r k := by
    funext a; apply Fin.ext
    match a with
    | ⟨0, _⟩ => rfl
    | ⟨1, _⟩ => show 7 + j.val = k.val; omega
  rw [val_main_v43_apply, val_main_v41_apply, val_main_v42_apply, val_main_cst_4_apply, e]

/-- The reference's softplus piece is the host's spelling of the softplus at the shifted entry. -/
theorem v44_at (i : Cert.ReferenceIdeal.S100000x7.Idx) :
    val_main_v44 (F := Ideal) x0 x1 x2 x3 x4 x5 x6 x7 i = spR (val_main_v43 (F := Ideal) x0 x1 x2 x3 x4 x5 x6 x7 i) := by
  rw [val_main_v44_apply, val_main_call2_v4_apply, val_main_call2_v6_apply, val_main_call2_v11_apply, val_main_call2_v1_apply,
    val_main_call2_v10_apply, val_main_call2_v9_apply, val_main_call2_v8_apply, val_main_call2_v7_apply, val_main_call2_v3_apply,
    val_main_call2_v0_apply, val_main_call2_v2_apply, val_main_call2_v5_apply, val_main_call2_cst_apply]
  rfl

/-- Columns 0–13 of the reference's second head. -/
theorem v45_at (r : Fin 100000) (j : Fin 14) (k : Fin 16) (hk : k.val = 0 + j.val) :
    val_main_v45 (F := Ideal) x0 x1 x2 x3 x4 x5 x8 x9 (ix2 r j) = val_main_v39 (F := Ideal) x0 x1 x2 x3 x4 x5 x8 x9 (ix2 r k) := by
  rw [val_main_v45_apply]
  refine congrArg (val_main_v39 (F := Ideal) x0 x1 x2 x3 x4 x5 x8 x9) ?_
  funext a; apply Fin.ext
  match a with
  | ⟨0, _⟩ => rfl
  | ⟨1, _⟩ => show j.val = k.val; omega

/-- Columns 14–15 of the reference's second head. -/
theorem v46_at (r : Fin 100000) (j : Fin 2) (k : Fin 16) (hk : k.val = 14 + j.val) :
    val_main_v46 (F := Ideal) x0 x1 x2 x3 x4 x5 x8 x9 (ix2 r j) = val_main_v39 (F := Ideal) x0 x1 x2 x3 x4 x5 x8 x9 (ix2 r k) := by
  rw [val_main_v46_apply]
  refine congrArg (val_main_v39 (F := Ideal) x0 x1 x2 x3 x4 x5 x8 x9) ?_
  funext a; apply Fin.ext
  match a with
  | ⟨0, _⟩ => rfl
  | ⟨1, _⟩ => show 14 + j.val = k.val; omega

end

/-! ## The whole row -/

section
variable {X : Vec Ideal Cert.KernelIdeal.S5000x14 .f32} {W2b Wd1b : Vec Ideal Cert.KernelIdeal.S14x14 .f32} {B1 : Vec Ideal Cert.KernelIdeal.S1x14 .f32}
  {Wd2b : Vec Ideal Cert.KernelIdeal.S14x16 .f32} {B2 : Vec Ideal Cert.KernelIdeal.S1x16 .f32}
  {x0 : (⟨Cert.ReferenceIdeal.S100000x64, .f32⟩ : BufTy).Contents (Elt Ideal)}
  {x1 x2 : (⟨Cert.ReferenceIdeal.S1000000, .i32⟩ : BufTy).Contents (Elt Ideal)}
  {x3 : (⟨Cert.ReferenceIdeal.S1000000, .f32⟩ : BufTy).Contents (Elt Ideal)}
  {x4 : (⟨Cert.ReferenceIdeal.S64x14, .f32⟩ : BufTy).Contents (Elt Ideal)}
  {x5 x6 : (⟨Cert.ReferenceIdeal.S14x14, .f32⟩ : BufTy).Contents (Elt Ideal)} {x7 : (⟨Cert.ReferenceIdeal.S14, .f32⟩ : BufTy).Contents (Elt Ideal)}
  {x8 : (⟨Cert.ReferenceIdeal.S14x16, .f32⟩ : BufTy).Contents (Elt Ideal)} {x9 : (⟨Cert.ReferenceIdeal.S16, .f32⟩ : BufTy).Contents (Elt Ideal)}
  {p : Fin 5000} {r : Fin 100000}

/-- Tile row p of the kernel's result is array row r of the reference's, all thirty columns. -/
theorem point (h : Agree X W2b Wd1b B1 Wd2b B2 x0 x1 x2 x3 x4 x5 x6 x7 x8 x9 p r) (q : Fin 30) :
    Cert.KernelIdeal.Gen.k1_pay1 (F := Ideal) (Cert.KernelIdeal.Gen.k1_pay4 (F := Ideal) X W2b Wd2b B2) (Cert.KernelIdeal.Gen.k1_pay5 (F := Ideal) X W2b Wd1b B1)
        (Cert.KernelIdeal.Gen.k1_pay7 (F := Ideal) X W2b Wd1b B1) (Cert.KernelIdeal.Gen.k1_pay9 (F := Ideal) X W2b Wd1b B1)
        (Cert.KernelIdeal.Gen.k1_pay10 (F := Ideal) X W2b Wd1b B1) (Cert.KernelIdeal.Gen.k1_pay11 (F := Ideal) X W2b Wd1b B1) (ix2 p q)
      = val_main_v47 (F := Ideal) x0 x1 x2 x3 x4 x5 x6 x7 x8 x9 (ix2 r q) := by
  unfold Cert.KernelIdeal.Gen.k1_pay1 val_main_v47
  refine ConcatCols.congr_rows (a := 5000) (A := 100000) (n1 := 7) (n2 := 7) (n3 := 14) (n4 := 2) (n := 30)
    _ _ _ _ _ _ _ _ _ _ rfl p r (fun j => ?_) (fun j => ?_) (fun j => ?_) (fun j => ?_) q
  · have hj := j.isLt
    rw [pay5_apply X W2b Wd1b B1 p j ⟨j.val, by omega⟩ (Nat.zero_add _).symm,
      v40_at x0 x1 x2 x3 x4 x5 x6 x7 r j ⟨j.val, by omega⟩ (Nat.zero_add _).symm]
    exact head1 h _
  · have hj := j.isLt
    rw [softplus_pay, v44_at, spK_eq_spR, pay6_apply X W2b Wd1b B1 p j ⟨7 + j.val, by omega⟩ rfl,
      v43_at x0 x1 x2 x3 x4 x5 x6 x7 r j ⟨7 + j.val, by omega⟩ rfl, head1 h]
  · have hj := j.isLt
    rw [pay4_lo X W2b Wd2b B2 p j ⟨j.val, by omega⟩ (Nat.zero_add _).symm,
      v45_at x0 x1 x2 x3 x4 x5 x8 x9 r j ⟨j.val, by omega⟩ (Nat.zero_add _).symm]
    exact head2 h _
  · have hj := j.isLt
    rw [pay4_hi X W2b Wd2b B2 p j ⟨14 + j.val, by omega⟩ rfl,
      v46_at x0 x1 x2 x3 x4 x5 x8 x9 r j ⟨14 + j.val, by omega⟩ rfl]
    exact head2 h _

end

end Cert.Bridge.Layer2

end
-- ==== Proof.Region1.lean ====
/-
  The second tiled kernel, from tiles to the whole array.

  Again 20 points: point t reads rows 5000·t … 5000·t + 4999 of the twice-aggregated features and the whole of
  the five parameter arrays, and writes back rows 5000·t … 5000·t + 4999 of the result, all 30 columns.  The
  tiles written back are restrictions of the reference's result, and they cover its 100000 rows.
-/
import proofs.«166342_j65549790871682_1_alg».proof.Proof.Gen.KernelIdeal.Frame
import proofs.«166342_j65549790871682_1_alg».proof.Proof.Layer2Out
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Read (val_main_v27 val_main_v47)

variable (V : (c : Dev nD) → (b : Ref sig .tc) → Buf (Elt Ideal) ((c : Thread nD τ).loc b))

theorem hz : (![0, 0] : Fin 2 → Nat) = fun _ => 0 := funext fun a => by fin_cases a <;> rfl

/-- Two functions on a matrix's indices agree when they agree at every (p, q). -/
theorem fn_ext2 {a b : Nat} {β : Type} (f g : (⟨2, ![a, b]⟩ : Shape).Idx → β)
    (h : ∀ (p : Fin a) (q : Fin b), f (ix2 p q) = g (ix2 p q)) : f = g :=
  funext fun y => by rw [eq_ix2 y]; exact h _ _

/-- The printed index maps over the grid: the row tiles move with the point, the parameters stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Writing back an uncut tile writes the tile. -/
theorem cut_apply (t : Fin cfg1.N) (Y : FVec Ideal S5000x30 .f32) (p : Fin 5000) (q : Fin 30) :
    (win1 6).cut (grid1.coords t) Y (ix2 p q) = Y (ix2 p q) := rfl

/-- Entry (p, q) of point t's tile of the result array is the array's entry (5000·t + p, q). -/
theorem read_out (t : Fin cfg1.N) (G : (⟨S100000x30, .f32⟩ : BufTy).Contents (Elt Ideal)) (p : Fin 5000) (q : Fin 30)
    (r : Fin 100000) (hr : r.val = t.val * 5000 + p.val) :
    View.read (Elt Ideal) ((View.whole main_v29).slice ((win1 6).rect t)) G (ix2 p q) = G (ix2 r q) := by
  have e := idx_facts t
  show G (((View.whole main_v29).slice ((win1 6).rect t)).emb (ix2 p q)) = G (ix2 r q)
  refine congrArg G ?_
  funext a; apply Fin.ext
  match a with
  | ⟨0, _⟩ => show win1_6.index t (0 : Fin 2) * 5000 + 1 * p.val = r.val; omega
  | ⟨1, _⟩ => show win1_6.index t (1 : Fin 2) * 30 + 1 * q.val = q.val; omega

/-- Entry (p, k) of point t's tile of the twice-aggregated features is the array's entry (5000·t + p, k). -/
theorem read_in0 (t : Fin cfg1.N) (A : (⟨S100000x14, .f32⟩ : BufTy).Contents (Elt Ideal)) (p : Fin 5000) (k : Fin 14)
    (r : Fin 100000) (hr : r.val = t.val * 5000 + p.val) :
    View.read (Elt Ideal) ((View.whole main_v26).slice ((win1 0).rect t)) A (ix2 p k) = A (ix2 r k) := by
  have e := idx_facts t
  show A (((View.whole main_v26).slice ((win1 0).rect t)).emb (ix2 p k)) = A (ix2 r k)
  refine congrArg A ?_
  funext a; apply Fin.ext
  match a with
  | ⟨0, _⟩ => show win1_0.index t (0 : Fin 2) * 5000 + 1 * p.val = r.val; omega
  | ⟨1, _⟩ => show win1_0.index t (1 : Fin 2) * 14 + 1 * k.val = k.val; omega

/-- The second layer's weights: one block, the whole matrix, at every point. -/
theorem read_in1 (t : Fin cfg1.N) (W : (⟨S14x14, .f32⟩ : BufTy).Contents (Elt Ideal)) (k : Fin 14) (j : Fin 14) :
    View.read (Elt Ideal) ((View.whole main_arg5).slice ((win1 1).rect t)) W (ix2 k j) = W (ix2 k j) := by
  have e := idx_facts t
  show W (((View.whole main_arg5).slice ((win1 1).rect t)).emb (ix2 k j)) = W (ix2 k j)
  refine congrArg W ?_
  funext a; apply Fin.ext
  match a with
  | ⟨0, _⟩ => show win1_1.index t (0 : Fin 2) * 14 + 1 * k.val = k.val; omega
  | ⟨1, _⟩ => show win1_1.index t (1 : Fin 2) * 14 + 1 * j.val = j.val; omega

/-- The first head's weights likewise. -/
theorem read_in2 (t : Fin cfg1.N) (W : (⟨S14x14, .f32⟩ : BufTy).Contents (Elt Ideal)) (k : Fin 14) (j : Fin 14) :
    View.read (Elt Ideal) ((View.whole main_arg6).slice ((win1 2).rect t)) W (ix2 k j) = W (ix2 k j) := by
  have e := idx_facts t
  show W (((View.whole main_arg6).slice ((win1 2).rect t)).emb (ix2 k j)) = W (ix2 k j)
  refine congrArg W ?_
  funext a; apply Fin.ext
  match a with
  | ⟨0, _⟩ => show win1_2.index t (0 : Fin 2) * 14 + 1 * k.val = k.val; omega
  | ⟨1, _⟩ => show win1_2.index t (1 : Fin 2) * 14 + 1 * j.val = j.val; omega

/-- The first head's bias row likewise. -/
theorem read_in3 (t : Fin cfg1.N) (W : (⟨S1x14, .f32⟩ : BufTy).Contents (Elt Ideal)) (k : Fin 1) (j : Fin 14) :
    View.read (Elt Ideal) ((View.whole main_v27).slice ((win1 3).rect t)) W (ix2 k j) = W (ix2 k j) := by
  have e := idx_facts t
  show W (((View.whole main_v27).slice ((win1 3).rect t)).emb (ix2 k j)) = W (ix2 k j)
  refine congrArg W ?_
  funext a; apply Fin.ext
  match a with
  | ⟨0, _⟩ => show win1_3.index t (0 : Fin 2) * 1 + 1 * k.val = k.val; omega
  | ⟨1, _⟩ => show win1_3.index t (1 : Fin 2) * 14 + 1 * j.val = j.val; omega

/-- The second head's weights likewise. -/
theorem read_in4 (t : Fin cfg1.N) (W : (⟨S14x16, .f32⟩ : BufTy).Contents (Elt Ideal)) (k : Fin 14) (j : Fin 16) :
    View.read (Elt Ideal) ((View.whole main_arg8).slice ((win1 4).rect t)) W (ix2 k j) = W (ix2 k j) := by
  have e := idx_facts t
  show W (((View.whole main_arg8).slice ((win1 4).rect t)).emb (ix2 k j)) = W (ix2 k j)
  refine congrArg W ?_
  funext a; apply Fin.ext
  match a with
  | ⟨0, _⟩ => show win1_4.index t (0 : Fin 2) * 14 + 1 * k.val = k.val; omega
  | ⟨1, _⟩ => show win1_4.index t (1 : Fin 2) * 16 + 1 * j.val = j.val; omega

/-- The second head's bias row likewise. -/
theorem read_in5 (t : Fin cfg1.N) (W : (⟨S1x16, .f32⟩ : BufTy).Contents (Elt Ideal)) (k : Fin 1) (j : Fin 16) :
    View.read (Elt Ideal) ((View.whole main_v28).slice ((win1 5).rect t)) W (ix2 k j) = W (ix2 k j) := by
  have e := idx_facts t
  show W (((View.whole main_v28).slice ((win1 5).rect t)).emb (ix2 k j)) = W (ix2 k j)
  refine congrArg W ?_
  funext a; apply Fin.ext
  match a with
  | ⟨0, _⟩ => show win1_5.index t (0 : Fin 2) * 1 + 1 * k.val = k.val; omega
  | ⟨1, _⟩ => show win1_5.index t (1 : Fin 2) * 16 + 1 * j.val = j.val; omega

/-- What point t writes back is tile t of the reference's result, when the region finds in its six input arrays the
    twice-aggregated features, the three weight matrices and the two biases as one-row matrices. -/
theorem flushed (c : Dev nD)
    (x0 : (⟨Cert.ReferenceIdeal.S100000x64, .f32⟩ : BufTy).Contents (Elt Ideal))
    (x1 x2 : (⟨Cert.ReferenceIdeal.S1000000, .i32⟩ : BufTy).Contents (Elt Ideal))
    (x3 : (⟨Cert.ReferenceIdeal.S1000000, .f32⟩ : BufTy).Contents (Elt Ideal))
    (x4 : (⟨Cert.ReferenceIdeal.S64x14, .f32⟩ : BufTy).Contents (Elt Ideal))
    (x5 x6 : (⟨Cert.ReferenceIdeal.S14x14, .f32⟩ : BufTy).Contents (Elt Ideal)) (x7 : (⟨Cert.ReferenceIdeal.S14, .f32⟩ : BufTy).Contents (Elt Ideal))
    (x8 : (⟨Cert.ReferenceIdeal.S14x16, .f32⟩ : BufTy).Contents (Elt Ideal)) (x9 : (⟨Cert.ReferenceIdeal.S16, .f32⟩ : BufTy).Contents (Elt Ideal))
    (hA : V c main_v26 = val_main_v27 (F := Ideal) x0 x1 x2 x3 x4) (h5 : V c main_arg5 = x5) (h6 : V c main_arg6 = x6)
    (h7 : ∀ k : Fin 14, V c main_v27 (ix2 (0 : Fin 1) k) = x7 (ix1 k)) (h8 : V c main_arg8 = x8)
    (h9 : ∀ k : Fin 16, V c main_v28 (ix2 (0 : Fin 1) k) = x9 (ix1 k)) (t : Fin cfg1.N) :
    (dat1 V c).flushed 6 t
      = ((cfg1.win 6).blk t).view.read (Elt Ideal) (val_main_v47 (F := Ideal) x0 x1 x2 x3 x4 x5 x6 x7 x8 x9) := by
  show (cfg1.win 6).cut (grid1.coords t) ((dat1 V c).after 6 t) = _
  rw [after1_6]
  unfold out1_6
  rw [View.canon_unit_zero hz]
  simp only [View.ld_unit_zero (S := S5000x14) hz, View.ld_unit_zero (S := S14x14) hz, View.ld_unit_zero (S := S14x16) hz,
    View.ld_unit_zero (S := S1x14) hz, View.ld_unit_zero (S := S1x16) hz]
  have ht : t.val < 20 := lt_of_lt_of_eq t.isLt N_1
  refine fn_ext2 (a := 5000) (b := 30) _ _ fun p q => ?_
  have hp : p.val < 5000 := p.isLt
  refine (cut_apply t _ p q).trans ?_
  refine Eq.trans ?_ (read_out t _ p q ⟨t.val * 5000 + p.val, by omega⟩ rfl).symm
  refine Cert.Bridge.Layer2.point ⟨fun k => ?_, fun k l => ?_, fun k l => ?_, fun k => ?_, fun k l => ?_, fun k => ?_⟩ q
  · exact (read_in0 t (V c main_v26) p k ⟨t.val * 5000 + p.val, by omega⟩ rfl).trans (congrFun hA _)
  · exact (read_in1 t (V c main_arg5) k l).trans (congrFun h5 _)
  · exact (read_in2 t (V c main_arg6) k l).trans (congrFun h6 _)
  · exact (read_in3 t (V c main_v27) 0 k).trans (h7 k)
  · exact (read_in4 t (V c main_arg8) k l).trans (congrFun h8 _)
  · exact (read_in5 t (V c main_v28) 0 k).trans (h9 k)

/-- An index of the result array is in point t's tile iff each coordinate is in the tile's range on its axis. -/
theorem mem_blk (t : Fin cfg1.N) (i : S100000x30.Idx) :
    i ∈ ((cfg1.win 6).blk t).view.set ↔ ∀ a : Fin 2, win1_6.index t a * S5000x30.size a ≤ (i a).val ∧ (i a).val < win1_6.index t a * S5000x30.size a + S5000x30.size a := by
  show i ∈ ((View.whole main_v29).slice (win1_6.rect t)).set ↔ _
  rw [View.set_slice_whole, Rect.mem_set_unit]
  exact Iff.rfl

/-- Row r lies in the tile of point r / 5000. -/
theorem cover (i : S100000x30.Idx) :
    ∃ t : Fin cfg1.N, (cfg1.win 6).flush t = true ∧ i ∈ ((cfg1.win 6).blk t).view.set := by
  have hi0 : (i 0).val < 100000 := (i 0).isLt
  have hi1 : (i 1).val < 30 := (i 1).isLt
  have hlt : (i 0).val / 5000 < cfg1.N := by rw [show cfg1.N = 20 from N_1]; omega
  refine ⟨⟨(i 0).val / 5000, hlt⟩, flush1_6 _, ?_⟩
  rw [mem_blk]
  have e := idx_facts ⟨(i 0).val / 5000, hlt⟩
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [e.2.2.2.2.2.2.2.2.2.2.2.2.1]; show (i 0).val / 5000 * 5000 ≤ (i 0).val ∧ (i 0).val < (i 0).val / 5000 * 5000 + 5000; omega
  | ⟨1, _⟩ =>
    show win1_6.index ⟨(i 0).val / 5000, hlt⟩ (1 : Fin 2) * 30 ≤ (i 1).val
      ∧ (i 1).val < win1_6.index ⟨(i 0).val / 5000, hlt⟩ (1 : Fin 2) * 30 + 30
    rw [e.2.2.2.2.2.2.2.2.2.2.2.2.2]; omega

/-- The result array after the region: the reference's result. -/
theorem final (c : Dev nD)
    (x0 : (⟨Cert.ReferenceIdeal.S100000x64, .f32⟩ : BufTy).Contents (Elt Ideal))
    (x1 x2 : (⟨Cert.ReferenceIdeal.S1000000, .i32⟩ : BufTy).Contents (Elt Ideal))
    (x3 : (⟨Cert.ReferenceIdeal.S1000000, .f32⟩ : BufTy).Contents (Elt Ideal))
    (x4 : (⟨Cert.ReferenceIdeal.S64x14, .f32⟩ : BufTy).Contents (Elt Ideal))
    (x5 x6 : (⟨Cert.ReferenceIdeal.S14x14, .f32⟩ : BufTy).Contents (Elt Ideal)) (x7 : (⟨Cert.ReferenceIdeal.S14, .f32⟩ : BufTy).Contents (Elt Ideal))
    (x8 : (⟨Cert.ReferenceIdeal.S14x16, .f32⟩ : BufTy).Contents (Elt Ideal)) (x9 : (⟨Cert.ReferenceIdeal.S16, .f32⟩ : BufTy).Contents (Elt Ideal))
    (hA : V c main_v26 = val_main_v27 (F := Ideal) x0 x1 x2 x3 x4) (h5 : V c main_arg5 = x5) (h6 : V c main_arg6 = x6)
    (h7 : ∀ k : Fin 14, V c main_v27 (ix2 (0 : Fin 1) k) = x7 (ix1 k)) (h8 : V c main_arg8 = x8)
    (h9 : ∀ k : Fin 16, V c main_v28 (ix2 (0 : Fin 1) k) = x9 (ix1 k)) :
    (dat1 V c).arrAt 6 cfg1.N = val_main_v47 (F := Ideal) x0 x1 x2 x3 x4 x5 x6 x7 x8 x9 :=
  (dat1 V c).arrAt_eq_of_cover 6 (val_main_v47 (F := Ideal) x0 x1 x2 x3 x4 x5 x6 x7 x8 x9)
    (fun t _ => flushed V c x0 x1 x2 x3 x4 x5 x6 x7 x8 x9 hA h5 h6 h7 h8 h9 t) cover

end Cert.KernelIdeal.Region1

end
-- ==== Proof.KernelValue.lean ====
/-
  The idealized kernel program's result as one function of its arguments.

  The result buffer ends at the second kernel's array; that array is the reference's last stage of what the
  second stretch leaves, which is the reference's middle stages of the first kernel's array, which is the
  reference's first clipped product of what the first stretch leaves.  Composed: the reference's whole result
  term of the ten arguments.
-/
import proofs.«166342_j65549790871682_1_alg».proof.Proof.KernelRun
import proofs.«166342_j65549790871682_1_alg».proof.Proof.Stretches
import proofs.«166342_j65549790871682_1_alg».proof.Proof.Region1

set_option maxRecDepth 16384

noncomputable section

namespace Cert.KernelIdeal.RunValue

open Cert.KernelIdeal Cert.KernelIdeal.Gen Cert.KernelIdeal.Stretches
open Idealize.ShloMosaic Idealize.ShloMosaic.TcCoe Idealize.SL.Sem
open Cert.ReferenceIdeal.Read (val_main_v47)

variable (m : (ℓ : Loc nD τ sig) → Buf (Elt Ideal) ℓ) (ρ : Dev nD → PrngReg)

/-- The second kernel's array after its write-backs is the reference's result term of the arguments. -/
theorem W4_result (c : Dev nD) :
    W4 m ρ c (Proc.devRef .tc main_v29) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 6).trans (Cert.KernelIdeal.Region1.final (V3 m ρ) c _ _ _ _ _ _ _ _ _ _
    (V3_v26 m ρ c) (V3_arg5 m ρ c) (V3_arg6 m ρ c) (V3_v27 m ρ c) (V3_arg8 m ρ c) (V3_v28 m ρ c))

/-- Every weakly fair execution terminates with the result buffer at the reference's result term of the
    arguments, and the arguments as launched. -/
theorem run_value : θ_run defs (onTc (τ := τ) (main (F := Ideal))) ⟨m, fun _ => 0, ρ⟩ (fun r => ∀ c : Dev nD,
      r.2.mem ((c.tc : Thread nD τ).loc main_v29) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W4_result m ρ c), (h c).2⟩) (run_result m ρ)

end Cert.KernelIdeal.RunValue

end
-- ==== Proof.lean ====
/-
  The kernel (two tiled TensorCore kernels around host gather / scatter-add stretches) against its jnp reference.

  Both programs aggregate X over the edge list (gather the rows at cols, scale by vals, scatter-add at rows),
  multiply by W1 and clip at zero, aggregate again, multiply by W2 and clip, and from that hidden row compute
  tanh(h·Wd1 + bd1) and tanh(h·Wd2 + bd2); the output row is the first seven columns of the first head, the
  softplus of its last seven shifted by a constant, and the second head.  The kernel program does the two
  aggregations with the same host operations as the reference and the dense parts in two kernels over 20 row
  tiles of 5000 rows, rounding the matrix products' operands to bf16.  On the extended reals a change of float
  format is the identity and every operation is exact, so each kernel's result array is, entry by entry, the
  reference's stage of the same operands: the sums over the contraction index are the same sums, term by term,
  and nothing needs the inputs to be finite.  The ideal pass rewrote nothing, so "preserves" is trivial.
-/
import proofs.«166342_j65549790871682_1_alg».proof.Defs
import proofs.«166342_j65549790871682_1_alg».proof.Proof.Gen.Kernel
import proofs.«166342_j65549790871682_1_alg».proof.Proof.Gen.Kernel.Skeleton
import proofs.«166342_j65549790871682_1_alg».proof.Proof.Gen.Kernel.Launch
import proofs.«166342_j65549790871682_1_alg».proof.Proof.Gen.Kernel.Points
import proofs.«166342_j65549790871682_1_alg».proof.Proof.Gen.Kernel.Frame
import proofs.«166342_j65549790871682_1_alg».proof.Proof.Gen.KernelIdeal
import proofs.«166342_j65549790871682_1_alg».proof.Proof.Gen.KernelIdeal.Skeleton
import proofs.«166342_j65549790871682_1_alg».proof.Proof.Gen.KernelIdeal.Launch
import proofs.«166342_j65549790871682_1_alg».proof.Proof.Gen.KernelIdeal.Points
import proofs.«166342_j65549790871682_1_alg».proof.Proof.Gen.KernelIdeal.Frame
import proofs.«166342_j65549790871682_1_alg».proof.Proof.Gen.ReferenceIdeal
import proofs.«166342_j65549790871682_1_alg».proof.Proof.Gen.ReferenceIdeal.Run
import proofs.«166342_j65549790871682_1_alg».proof.Proof.Gen.ReferenceIdeal.Read
import proofs.«166342_j65549790871682_1_alg».proof.Proof.Gen.Pre_finite_inputs
import proofs.«166342_j65549790871682_1_alg».proof.Proof.KernelValue
import Idealize.ShloMosaic.Adequacy
import Idealize.ShloMosaic.Init

noncomputable section

namespace Cert.Proof

open Idealize.ShloMosaic Idealize.SL.Sem

/-- The kernel program as printed terminates and keeps its arguments (the generated frame). -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the ten arguments both programs end with the result buffer at the reference's
    result term of those arguments. -/
theorem algebraic : Cert.algebraic_KernelIdeal_ReferenceIdeal := by
  intro m ρ m' ρ' _ hagree
  refine ⟨fun c => Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v47_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
